-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 138
  | .vmem => 39
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S100000x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x1, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S100000x128, .f32⟩
  | 118 => ⟨S100000x40, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x40, .f32⟩
  | _ => ⟨S100000x128, .f32⟩

abbrev hbmTy0_1 (i : Nat) : BufTy := match i % 128 with
  | 0 => ⟨S1700000x1, .f32⟩
  | 1 => ⟨S1700000x40, .f32⟩
  | 2 => ⟨S1700000x40, .f32⟩
  | 3 => ⟨S_, .f32⟩
  | 4 => ⟨S100000x40, .f32⟩
  | 5 => ⟨S1700000x1, .i32⟩
  | 6 => ⟨S100000x40, .f32⟩
  | 7 => ⟨S1x40, .f32⟩
  | 8 => ⟨S100000x40, .f32⟩
  | 9 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x40, .f32⟩
  | .local _ .vmem, ⟨37, _⟩ => ⟨S5000x40, .f32⟩
  | .local _ .vmem, ⟨38, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x40.size a ≤ S100000x40.size a
  hwx6_2 : ∀ i : grid6.Coords, EltTy.bits .f32 = 32 ∨ (Rect.block (s := S100000x40) S5000x40.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S5000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 258
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000, .i32⟩
  | 107 => ⟨S1x1600000, .i32⟩
  | 108 => ⟨S1600000, .i32⟩
  | 109 => ⟨S1700000, .i32⟩
  | 110 => ⟨S1x1600000, .i32⟩
  | 111 => ⟨S1600000, .i32⟩
  | 112 => ⟨S1700000, .i32⟩
  | 113 => ⟨S_, .f32⟩
  | 114 => ⟨S1700000, .f32⟩
  | 115 => ⟨S_, .f32⟩
  | 116 => ⟨S100000, .f32⟩
  | 117 => ⟨S1700000x1, .i32⟩
  | 118 => ⟨S100000, .f32⟩
  | 119 => ⟨S_, .f32⟩
  | 120 => ⟨S100000, .f32⟩
  | 121 => ⟨S100000, .i1⟩
  | 122 => ⟨S100000, .f32⟩
  | 123 => ⟨S_, .f32⟩
  | 124 => ⟨S_, .f32⟩
  | 125 => ⟨S100000, .f32⟩
  | 126 => ⟨S100000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000, .f32⟩
  | 17 => ⟨S1700000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x128, .f32⟩
  | 27 => ⟨S1700000x1, .f32⟩
  | 28 => ⟨S1700000x128, .f32⟩
  | 29 => ⟨S1700000x128, .f32⟩
  | 30 => ⟨S_, .f32⟩
  | 31 => ⟨S100000x128, .f32⟩
  | 32 => ⟨S1700000x1, .i32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x40, .f32⟩
  | 71 => ⟨S100000, .i32⟩
  | 72 => ⟨S1x1600000, .i32⟩
  | 73 => ⟨S1600000, .i32⟩
  | 74 => ⟨S1700000, .i32⟩
  | 75 => ⟨S1x1600000, .i32⟩
  | 76 => ⟨S1600000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x40, .f32⟩
  | 120 => ⟨S1700000x1, .f32⟩
  | 121 => ⟨S1700000x40, .f32⟩
  | 122 => ⟨S1700000x40, .f32⟩
  | 123 => ⟨S_, .f32⟩
  | 124 => ⟨S100000x40, .f32⟩
  | 125 => ⟨S1700000x1, .i32⟩
  | 126 => ⟨S100000x40, .f32⟩
  | 127 => ⟨S1x40, .f32⟩
  | _ => ⟨S100000x128, .f32⟩

abbrev hbmTy0_2 (i : Nat) : BufTy := match i % 128 with
  | 0 => ⟨S100000x40, .f32⟩
  | 1 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_24 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_cst_26 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_27 : Ref sig .tc := ⟨.hbm, 174, rfl⟩
abbrev main_v127 : Ref sig .tc := ⟨.hbm, 175, rfl⟩
abbrev main_cst_28 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_29 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_call3_cst : Ref sig .tc := ⟨.hbm, 195, rfl⟩
abbrev main_call3_v0 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_30 : Ref sig .tc := ⟨.hbm, 206, rfl⟩
abbrev main_v154 : Ref sig .tc := ⟨.hbm, 207, rfl⟩
abbrev main_cst_31 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_32 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_33 : Ref sig .tc := ⟨.hbm, 216, rfl⟩
abbrev main_call4_v0 : Ref sig .tc := ⟨.hbm, 217, rfl⟩
abbrev main_call4_v1 : Ref sig .tc := ⟨.hbm, 218, rfl⟩
abbrev main_v161 : Ref sig .tc := ⟨.hbm, 219, rfl⟩
abbrev main_c_34 : Ref sig .tc := ⟨.hbm, 220, rfl⟩
abbrev main_v162 : Ref sig .tc := ⟨.hbm, 221, rfl⟩
abbrev main_v163 : Ref sig .tc := ⟨.hbm, 222, rfl⟩
abbrev main_c_35 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_c_36 : Ref sig .tc := ⟨.hbm, 229, rfl⟩
abbrev main_v169 : Ref sig .tc := ⟨.hbm, 230, rfl⟩
abbrev main_v170 : Ref sig .tc := ⟨.hbm, 231, rfl⟩
abbrev main_c_37 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_c_38 : Ref sig .tc := ⟨.hbm, 239, rfl⟩
abbrev main_v177 : Ref sig .tc := ⟨.hbm, 240, rfl⟩
abbrev main_v178 : Ref sig .tc := ⟨.hbm, 241, rfl⟩
abbrev main_c_39 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_40 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  THE IDEALIZED KERNEL PROGRAM'S RUN, WITH ITS RESULT.  The program is fifteen segments: stretches of host operations
  and seven kernel regions.  Each segment maps the buffer contents at its entry to those at its exit (a host stretch
  applies its operations; a region leaves its arrays at what its write-backs fold to and every other buffer as it
  was).  Every weakly fair execution terminates without a fault in a state whose unscoped buffers hold the last
  boundary's contents; read at the result buffer, that is the value of the program, and at the arguments, the launch
  contents.
-/
import proofs.«149254_j13735305413410_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the theorem for a run through segments are found by unifying its conclusion with this
-- statement, which takes unfolding plain definitions in the type of a variable still to be found
set_option backward.isDefEq.respectTransparency.types false in
/-- THE RUN WITH ITS RESULT: every weakly fair execution of @main terminates, nothing faulting, with the result array at the
    contents the fold through @main's segments gives it and the argument arrays as launched. -/
theorem runResult : θ_run defs (onTc (τ := τ) (main (F := F))) ⟨m, fun _ => 0, ρ⟩ (fun r => ∀ c : Dev nD,
      r.2.mem ((c.tc : Thread nD τ).loc main_v100) = W15 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v100 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Layers

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«149254_j13735305413410_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«149254_j13735305413410_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«149254_j13735305413410_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.Product0.lean ====
/-
  REGION 0: a matrix product computed block of rows by block of rows.

  The grid has 20 points; point t loads rows 5000 t … 5000 t + 4999 of the [100000, 128] left operand and the whole
  [128, 128] right operand, multiplies them into a zero accumulator and writes the [5000, 128] product to rows
  5000 t … of the result.  A row of a product depends only on the same row of the left operand, so the blocks are
  the rows of the product of the whole arrays, and the twenty blocks tile the result: after the region the result
  array is the whole product, entry (r, j) ↦ ∑ k, A (r, k) · W (k, j), of the arrays as the region finds them.
-/
import proofs.«149254_j13735305413410_1_alg».proof.Proof.Gen.KernelIdeal.Frame
import proofs.«149254_j13735305413410_1_alg».proof.Proof.LibRegionRows
import Idealize.ShloMosaic.Lib.Pipeline.Value

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue
open Idealize.ShloMosaic.Pipeline (Dat)

/-- The body's product of a block of rows, read at the block's index y, is the whole product at the array's index i
    that is y moved down by `off` rows. -/
theorem prodBlock0 (x0 : Vec Ideal S5000x128 .f32) (x1 : Vec Ideal S128x128 .f32)
    (A : S100000x128.Idx → EReal) (W : S128x128.Idx → EReal) (off : ℕ) (y : S5000x128.Idx) (i : S100000x128.Idx)
    (hi0 : (i 0).val = off + (y 0).val) (hi1 : (i 1).val = (y 1).val)
    (ha : ∀ (u : S5000x128.Idx) (z : S100000x128.Idx), (z 0).val = off + (u 0).val → (z 1).val = (u 1).val → x0 u = A z)
    (hw : ∀ u : S128x128.Idx, x1 u = W u) :
    k0_pay1 (F := Ideal) x0 x1 y = prodArr A W i := by
  unfold k0_pay1
  exact block_prod none (truncf .bf16 x0 bitsLt_bf16_f32) (truncf .bf16 x1 bitsLt_bf16_f32) A W off y i hi0 hi1 ha hw

variable (V : (c : Dev nD) → (b : Ref sig .tc) → Buf (Elt Ideal) ((c : Thread nD τ).loc b))

/-- The printed index maps over the grid: the row blocks follow the point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushedProd0 (c : Dev nD) (t : Fin cfg0.N) :
    (dat0 V c).flushed 2 t = ((cfg0.win 2).blk t).view.read (Elt Ideal)
      (prodArr (R := 100000) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero off2_zero]
  simp only [View.ld_unit_zero (S := S5000x128) off2_zero, View.ld_unit_zero (S := S128x128) off2_zero]
  obtain ⟨e0, e1, e2, e3, e4, e5⟩ := idx0 t
  funext j
  refine prodBlock0 _ _ _ _ (t.val * 5000) j _ ?_ ?_ ?_ ?_
  · show win0_2.index t (0 : Fin 2) * 5000 + 1 * (j 0).val = _
    omega
  · show win0_2.index t (1 : Fin 2) * 128 + 1 * (j 1).val = _
    omega
  · intro u z h0 h1
    show V c (Pipeline.arrRef spec0 0) (((cfg0.win 0).blk t).view.emb u) = V c (Pipeline.arrRef spec0 0) z
    refine congrArg _ (funext fun a => Fin.ext ?_)
    match a with
    | ⟨0, _⟩ => show win0_0.index t (0 : Fin 2) * 5000 + 1 * (u 0).val = (z 0).val; omega
    | ⟨1, _⟩ => show win0_0.index t (1 : Fin 2) * 128 + 1 * (u 1).val = (z 1).val; omega
  · intro u
    show V c (Pipeline.arrRef spec0 1) (((cfg0.win 1).blk t).view.emb u) = V c (Pipeline.arrRef spec0 1) u
    refine congrArg _ (funext fun a => Fin.ext ?_)
    match a with
    | ⟨0, _⟩ => show win0_1.index t (0 : Fin 2) * 128 + 1 * (u 0).val = (u 0).val; omega
    | ⟨1, _⟩ => show win0_1.index t (1 : Fin 2) * 128 + 1 * (u 1).val = (u 1).val; omega

/-- An index of the result is in point t's block iff its row is among the block's 5000 rows. -/
theorem memBlk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks cover the result: row r is in the block of point r / 5000. -/
theorem coverProd0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5⟩ := idx0 t
  have ht : t.val = (i 0).val / 5000 := rfl
  refine ⟨t, flush0_2 t, ?_⟩
  rw [memBlk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY AFTER THE REGION: the product of the two arrays as the region finds them. -/
theorem finalProd0 (c : Dev nD) :
    (dat0 V c).arrAt 2 cfg0.N
      = prodArr (R := 100000) (K := 128) (N := 128) (V c (Pipeline.arrRef spec0 0)) (V c (Pipeline.arrRef spec0 1)) :=
  (dat0 V c).arrAt_eq_of_cover 2 _ (fun t _ => flushedProd0 V c t) (coverProd0)

end Cert.KernelIdeal.Layers

end
-- ==== Proof.Product3.lean ====
/-
  REGION 3: a matrix product computed block of rows by block of rows.

  The grid has 20 points; point t loads rows 5000 t … 5000 t + 4999 of the [100000, 128] left operand and the whole
  [128, 128] right operand, multiplies them into a zero accumulator and writes the [5000, 128] product to rows
  5000 t … of the result.  A row of a product depends only on the same row of the left operand, so the blocks are
  the rows of the product of the whole arrays, and the twenty blocks tile the result: after the region the result
  array is the whole product, entry (r, j) ↦ ∑ k, A (r, k) · W (k, j), of the arrays as the region finds them.
-/
import proofs.«149254_j13735305413410_1_alg».proof.Proof.Gen.KernelIdeal.Frame
import proofs.«149254_j13735305413410_1_alg».proof.Proof.LibRegionRows
import Idealize.ShloMosaic.Lib.Pipeline.Value

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue
open Idealize.ShloMosaic.Pipeline (Dat)

/-- The body's product of a block of rows, read at the block's index y, is the whole product at the array's index i
    that is y moved down by `off` rows. -/
theorem prodBlock3 (x0 : Vec Ideal S5000x128 .f32) (x1 : Vec Ideal S128x128 .f32)
    (A : S100000x128.Idx → EReal) (W : S128x128.Idx → EReal) (off : ℕ) (y : S5000x128.Idx) (i : S100000x128.Idx)
    (hi0 : (i 0).val = off + (y 0).val) (hi1 : (i 1).val = (y 1).val)
    (ha : ∀ (u : S5000x128.Idx) (z : S100000x128.Idx), (z 0).val = off + (u 0).val → (z 1).val = (u 1).val → x0 u = A z)
    (hw : ∀ u : S128x128.Idx, x1 u = W u) :
    k3_pay1 (F := Ideal) x0 x1 y = prodArr A W i := by
  unfold k3_pay1
  simp only [shapeCast_self]
  exact block_prod none (truncf .bf16 x0 bitsLt_bf16_f32) (truncf .bf16 x1 bitsLt_bf16_f32) A W off y i hi0 hi1 ha hw

variable (V : (c : Dev nD) → (b : Ref sig .tc) → Buf (Elt Ideal) ((c : Thread nD τ).loc b))

/-- The printed index maps over the grid: the row blocks follow the point, the right operand stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushedProd3 (c : Dev nD) (t : Fin cfg3.N) :
    (dat3 V c).flushed 2 t = ((cfg3.win 2).blk t).view.read (Elt Ideal)
      (prodArr (R := 100000) (K := 128) (N := 128) (V c (Pipeline.arrRef spec3 0)) (V c (Pipeline.arrRef spec3 1))) := by
  show (cfg3.win 2).cut (grid3.coords t) ((dat3 V c).after 2 t) = _
  rw [after3_2]
  unfold out3_2
  rw [View.canon_unit_zero off2_zero]
  simp only [View.ld_unit_zero (S := S5000x128) off2_zero, View.ld_unit_zero (S := S128x128) off2_zero]
  obtain ⟨e0, e1, e2, e3, e4, e5⟩ := idx3 t
  funext j
  refine prodBlock3 _ _ _ _ (t.val * 5000) j _ ?_ ?_ ?_ ?_
  · show win3_2.index t (0 : Fin 2) * 5000 + 1 * (j 0).val = _
    omega
  · show win3_2.index t (1 : Fin 2) * 128 + 1 * (j 1).val = _
    omega
  · intro u z h0 h1
    show V c (Pipeline.arrRef spec3 0) (((cfg3.win 0).blk t).view.emb u) = V c (Pipeline.arrRef spec3 0) z
    refine congrArg _ (funext fun a => Fin.ext ?_)
    match a with
    | ⟨0, _⟩ => show win3_0.index t (0 : Fin 2) * 5000 + 1 * (u 0).val = (z 0).val; omega
    | ⟨1, _⟩ => show win3_0.index t (1 : Fin 2) * 128 + 1 * (u 1).val = (z 1).val; omega
  · intro u
    show V c (Pipeline.arrRef spec3 1) (((cfg3.win 1).blk t).view.emb u) = V c (Pipeline.arrRef spec3 1) u
    refine congrArg _ (funext fun a => Fin.ext ?_)
    match a with
    | ⟨0, _⟩ => show win3_1.index t (0 : Fin 2) * 128 + 1 * (u 0).val = (u 0).val; omega
    | ⟨1, _⟩ => show win3_1.index t (1 : Fin 2) * 128 + 1 * (u 1).val = (u 1).val; omega

/-- An index of the result is in point t's block iff its row is among the block's 5000 rows. -/
theorem memBlk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v57).slice (win3_2.rect t)).set ↔ _
  rw [View.set_slice_whole, Rect.mem_set_unit]
  exact Iff.rfl

/-- The twenty blocks cover the result: row r is in the block of point r / 5000. -/
theorem coverProd3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨e0, e1, e2, e3, e4, e5⟩ := idx3 t
  have ht : t.val = (i 0).val / 5000 := rfl
  refine ⟨t, flush3_2 t, ?_⟩
  rw [memBlk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE RESULT ARRAY AFTER THE REGION: the product of the two arrays as the region finds them. -/
theorem finalProd3 (c : Dev nD) :
    (dat3 V c).arrAt 2 cfg3.N
      = prodArr (R := 100000) (K := 128) (N := 128) (V c (Pipeline.arrRef spec3 0)) (V c (Pipeline.arrRef spec3 1)) :=
  (dat3 V c).arrAt_eq_of_cover 2 _ (fun t _ => flushedProd3 V c t) (coverProd3)

end Cert.KernelIdeal.Layers

end
-- ==== Proof.Product6.lean ====
/-
  REGION 6: a matrix product computed block of rows by block of rows.

  The grid has 20 points; point t loads rows 5000 t … 5000 t + 4999 of the [100000, 128] left operand and the whole
  [128, 40] right operand, multiplies them into a zero accumulator and writes the [5000, 40] product to rows
  5000 t … of the result.  A row of a product depends only on the same row of the left operand, so the blocks are
  the rows of the product of the whole arrays, and the twenty blocks tile the result: after the region the result
  array is the whole product, entry (r, j) ↦ ∑ k, A (r, k) · W (k, j), of the arrays as the region finds them.
-/
import proofs.«149254_j13735305413410_1_alg».proof.Proof.Gen.KernelIdeal.Frame
import proofs.«149254_j13735305413410_1_alg».proof.Proof.LibRegionRows
import Idealize.ShloMosaic.Lib.Pipeline.Value

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue
open Idealize.ShloMosaic.Pipeline (Dat)

/-- The body's product of a block of rows, read at the block's index y, is the whole product at the array's index i
    that is y moved down by `off` rows. -/
theorem prodBlock6 (x0 : Vec Ideal S5000x128 .f32) (x1 : Vec Ideal S128x40 .f32)
    (A : S100000x128.Idx → EReal) (W : S128x40.Idx → EReal) (off : ℕ) (y : S5000x40.Idx) (i : S100000x40.Idx)
    (hi0 : (i 0).val = off + (y 0).val) (hi1 : (i 1).val = (y 1).val)
    (ha : ∀ (u : S5000x128.Idx) (z : S100000x128.Idx), (z 0).val = off + (u 0).val → (z 1).val = (u 1).val → x0 u = A z)
    (hw : ∀ u : S128x40.Idx, x1 u = W u) :
    k6_pay1 (F := Ideal) x0 x1 y = prodArr A W i := by
  unfold k6_pay1
  simp only [shapeCast_self]
  exact block_prod none (truncf .bf16 x0 bitsLt_bf16_f32) (truncf .bf16 x1 bitsLt_bf16_f32) A W off y i hi0 hi1 ha hw

variable (V : (c : Dev nD) → (b : Ref sig .tc) → Buf (Elt Ideal) ((c : Thread nD τ).loc b))

/-- The printed index maps over the grid: the row blocks follow the point, the right operand stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushedProd6 (c : Dev nD) (t : Fin cfg6.N) :
    (dat6 V c).flushed 2 t = ((cfg6.win 2).blk t).view.read (Elt Ideal)
      (prodArr (R := 100000) (K := 128) (N := 40) (V c (Pipeline.arrRef spec6 0)) (V c (Pipeline.arrRef spec6 1))) := by
  show (cfg6.win 2).cut (grid6.coords t) ((dat6 V c).after 2 t) = _
  rw [after6_2]
  unfold out6_2
  rw [View.canon_unit_zero off2_zero]
  simp only [View.ld_unit_zero (S := S5000x128) off2_zero, View.ld_unit_zero (S := S128x40) off2_zero]
  obtain ⟨e0, e1, e2, e3, e4, e5⟩ := idx6 t
  funext j
  refine prodBlock6 _ _ _ _ (t.val * 5000) j _ ?_ ?_ ?_ ?_
  · show win6_2.index t (0 : Fin 2) * 5000 + 1 * (j 0).val = _
    omega
  · show win6_2.index t (1 : Fin 2) * 40 + 1 * (j 1).val = _
    omega
  · intro u z h0 h1
    show V c (Pipeline.arrRef spec6 0) (((cfg6.win 0).blk t).view.emb u) = V c (Pipeline.arrRef spec6 0) z
    refine congrArg _ (funext fun a => Fin.ext ?_)
    match a with
    | ⟨0, _⟩ => show win6_0.index t (0 : Fin 2) * 5000 + 1 * (u 0).val = (z 0).val; omega
    | ⟨1, _⟩ => show win6_0.index t (1 : Fin 2) * 128 + 1 * (u 1).val = (z 1).val; omega
  · intro u
    show V c (Pipeline.arrRef spec6 1) (((cfg6.win 1).blk t).view.emb u) = V c (Pipeline.arrRef spec6 1) u
    refine congrArg _ (funext fun a => Fin.ext ?_)
    match a with
    | ⟨0, _⟩ => show win6_1.index t (0 : Fin 2) * 128 + 1 * (u 0).val = (u 0).val; omega
    | ⟨1, _⟩ => show win6_1.index t (1 : Fin 2) * 40 + 1 * (u 1).val = (u 1).val; omega

/-- An index of the result is in point t's block iff its row is among the block's 5000 rows. -/
theorem memBlk6 (t : Fin cfg6.N) (i : S100000x40.Idx) :
    i ∈ ((cfg6.win 2).blk t).view.set ↔ ∀ a : Fin 2, win6_2.index t a * S5000x40.size a ≤ (i a).val ∧ (i a).val < win6_2.index t a * S5000x40.size a + S5000x40.size a := by
  show i ∈ ((View.whole main_v84).slice (win6_2.rect t)).set ↔ _
  rw [View.set_slice_whole, Rect.mem_set_unit]
  exact Iff.rfl

/-- The twenty blocks cover the result: row r is in the block of point r / 5000. -/
theorem coverProd6 (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  let t : Fin cfg6.N := ⟨(i 0).val / 5000, by show (i 0).val / 5000 < 20; omega⟩
  obtain ⟨e0, e1, e2, e3, e4, e5⟩ := idx6 t
  have ht : t.val = (i 0).val / 5000 := rfl
  refine ⟨t, flush6_2 t, ?_⟩
  rw [memBlk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 40 ≤ (i 1).val ∧ (i 1).val < win6_2.index t (1 : Fin 2) * 40 + 40; omega

/-- THE RESULT ARRAY AFTER THE REGION: the product of the two arrays as the region finds them. -/
theorem finalProd6 (c : Dev nD) :
    (dat6 V c).arrAt 2 cfg6.N
      = prodArr (R := 100000) (K := 128) (N := 40) (V c (Pipeline.arrRef spec6 0)) (V c (Pipeline.arrRef spec6 1)) :=
  (dat6 V c).arrAt_eq_of_cover 2 _ (fun t _ => flushedProd6 V c t) (coverProd6)

end Cert.KernelIdeal.Layers

end
-- ==== Proof.LayerFns.lean ====
/-
  THE WHOLE-ARRAY FUNCTIONS OF ONE BATCH-NORMALISED LAYER, on the extended reals.

  For an array x of 100000 rows and 128 columns:
  • the column sums  j ↦ ∑ r, x (r, j)  and the column sums of squares  j ↦ ∑ r, x (r, j)², as [1, 128] rows;
  • normalise-scale-shift-rectify: entry (r, j) ↦ max (((x (r, j) − mean j) · rsqrt (var j + ε)) · scale j + shift j, 0),
    the four rows mean, var, scale, shift being [1, 128] arrays and ε the float 1e-5.
  The float words ε and 0 are kept as words: both programs carry the same words.
-/
import Idealize.ShloMosaic.PureOps.Ideal
import Idealize.ShloMosaic.Lib.ValueIdx

noncomputable section

open scoped BigOperators

namespace Cert.LayerFns

open Idealize.ShloMosaic Idealize.ShloMosaic.ValueIdx

/-- The column sums as a [1, 128] row. -/
def colSum (x : (⟨2, ![100000, 128]⟩ : Shape).Idx → EReal) : (⟨2, ![1, 128]⟩ : Shape).Idx → EReal :=
  fun y => ∑ r : Fin 100000, x (ix2 r (y 1))

/-- The column sums of squares as a [1, 128] row. -/
def colSumSq (x : (⟨2, ![100000, 128]⟩ : Shape).Idx → EReal) : (⟨2, ![1, 128]⟩ : Shape).Idx → EReal :=
  fun y => ∑ r : Fin 100000, x (ix2 r (y 1)) * x (ix2 r (y 1))

/-- Normalise, scale, shift, rectify. -/
def normRelu (x : (⟨2, ![100000, 128]⟩ : Shape).Idx → EReal) (mean var scale shift : (⟨2, ![1, 128]⟩ : Shape).Idx → EReal) :
    (⟨2, ![100000, 128]⟩ : Shape).Idx → EReal :=
  fun i => max ((x i - mean (ix2 (0 : Fin 1) (i 1))) * Ideal.rsqrt (var (ix2 (0 : Fin 1) (i 1)) + Ideal.ofBits .f32 0x3727C5AC#32)
      * scale (ix2 (0 : Fin 1) (i 1)) + shift (ix2 (0 : Fin 1) (i 1))) (Ideal.ofBits .f32 0x00000000#32)

end Cert.LayerFns

end
-- ==== Proof.ColumnSums1.lean ====
/-
  REGION 1: the column sums and the column sums of squares of a [100000, 128] array, accumulated over twenty blocks
  of 5000 rows in two [1, 128] rows that stay in place across the grid.

  At the first point the two rows are set to zero; at every point the block's column sums (of the entries, and of
  their squares) are added to the rows; the rows are written back after the last point.  Addition on the extended
  reals is associative and commutative, so after point n the rows hold the sums over the first 5000 (n + 1) rows of
  the array, and after the last point the sums over all 100000 rows.  Nothing needs to be finite.
-/
import proofs.«149254_j13735305413410_1_alg».proof.Proof.Gen.KernelIdeal.Frame
import proofs.«149254_j13735305413410_1_alg».proof.Proof.LibRegionRows
import proofs.«149254_j13735305413410_1_alg».proof.Proof.LayerFns
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue Cert.LayerFns
open Idealize.ShloMosaic.Pipeline (Dat)

/-- The lane sum of a [5000, 128] block down its rows, read at column j. -/
theorem laneSum1 (src : FVec Ideal S5000x128 .f32) (hacc : (0x00000000#32 : BitVec 32) = 0x00000000#32) (u : Fin 1) (j : Fin 128) :
    shapeCast S1x128 (multiReduction .add [0] S128 src 0x00000000#32 reduces_S5000x128_S128 (.inl rfl) hacc) shapeCasts_S128_S1x128 (ix2 u j)
      = ∑ p : Fin 5000, src (ix2 p j) := by
  refine (shapeCast_a_1a_apply _ _ u j).trans ?_
  refine (Ideal.multiReduction_add_single src 0x00000000#32 reduces_S5000x128_S128 (.inl rfl) hacc (ix1 j)).trans ?_
  refine Finset.sum_congr rfl fun p _ => congrArg src (funext fun a => ?_)
  match a with
  | ⟨0, _⟩ => rfl
  | ⟨1, _⟩ => rfl

/-- One step of the running column sums: the row so far plus the block's column sums. -/
theorem sumStep1 (x : Vec Ideal S5000x128 .f32) (xo : Vec Ideal S1x128 .f32) (u : Fin 1) (j : Fin 128) :
    k1_pay4 (F := Ideal) x xo (ix2 u j) = xo (ix2 u j) + ∑ p : Fin 5000, x (ix2 p j) := by
  unfold k1_pay4 k1_pay3
  simp only [shapeCast_self]
  exact congrArg (xo (ix2 u j) + ·) (laneSum1 x rfl u j)

/-- One step of the running column sums of squares. -/
theorem sqStep1 (x : Vec Ideal S5000x128 .f32) (xo : Vec Ideal S1x128 .f32) (u : Fin 1) (j : Fin 128) :
    k1_pay5 (F := Ideal) x xo (ix2 u j) = xo (ix2 u j) + ∑ p : Fin 5000, x (ix2 p j) * x (ix2 p j) := by
  unfold k1_pay5 k1_pay3
  simp only [shapeCast_self]
  exact congrArg (xo (ix2 u j) + ·) (laneSum1 (mulf x x) rfl u j)

/-- The zero rows the first point stores. -/
theorem zeroRow1 (y : S1x128.Idx) : k1_pay1 (F := Ideal) y = 0 ∧ k1_pay2 (F := Ideal) y = 0 :=
  ⟨by unfold k1_pay1; exact Ideal.ofBits_zero_f32, by unfold k1_pay2; exact Ideal.ofBits_zero_f32⟩

/-- CASE B (every point but the first): the body leaves, in the two rows holding xo1 and xo2, the steps of them. -/
theorem caseB1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S5000x128 .f32) (xo1 xo2 : Vec Ideal S1x128 .f32) :
    out1_B_1 (F := Ideal) c i a1 h1 a2 h2 a3 h3 hc x xo1 xo2 = k1_pay4 x xo1
      ∧ out1_B_2 (F := Ideal) c i a1 h1 a2 h2 a3 h3 hc x xo1 xo2 = k1_pay5 x xo2 := by
  constructor
  · unfold out1_B_1
    rw [View.read_writes_eq_canon _ _ _ (cover1_B_1 c i a1 h1 a2 h2 a3 h3 hc x xo1 xo2)]
    unfold kernelRun1_B
    dsimp only
    rw [View.canon_unit_zero off2_zero]
    simp only [View.readAt_eq_ld, h1.read_unread, h2.read_unread, h3.read_unread, View.ld_unit_zero (S := S5000x128) off2_zero,
      View.ld_unit_zero (S := S1x128) off2_zero]
  · unfold out1_B_2
    rw [View.read_writes_eq_canon _ _ _ (cover1_B_2 c i a1 h1 a2 h2 a3 h3 hc x xo1 xo2)]
    unfold kernelRun1_B
    dsimp only
    rw [View.canon_unit_zero off2_zero]
    simp only [View.readAt_eq_ld, h1.read_unread, h2.read_unread, h3.read_unread, View.ld_unit_zero (S := S5000x128) off2_zero,
      View.ld_unit_zero (S := S1x128) off2_zero]

/-- CASE A (the first point): the rows are zeroed, read back and stepped. -/
theorem caseA1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S5000x128 .f32) :
    out1_A_1 (F := Ideal) c i a1 h1 a2 h2 a3 h3 hc x = k1_pay4 x (k1_pay1 (F := Ideal))
      ∧ out1_A_2 (F := Ideal) c i a1 h1 a2 h2 a3 h3 hc x = k1_pay5 x (k1_pay2 (F := Ideal)) := by
  constructor
  · unfold out1_A_1
    rw [View.read_writes_eq_canon _ _ _ (cover1_A_1 c i a1 h1 a2 h2 a3 h3 hc x)]
    unfold kernelRun1_A
    dsimp only
    sl_unfold_words
    rw [View.canon_cons_unit_zero (S := S1x128) off2_zero, View.readCov_unit_zero (S := S1x128) _ off2_zero]
    simp only [View.readAt_eq_ld, h1.read_unread, View.ld_unit_zero (S := S5000x128) off2_zero,
      View.ld_unit_zero (S := S1x128) off2_zero]
  · unfold out1_A_2
    rw [View.read_writes_eq_canon _ _ _ (cover1_A_2 c i a1 h1 a2 h2 a3 h3 hc x)]
    unfold kernelRun1_A
    dsimp only
    sl_unfold_words
    rw [View.canon_cons_unit_zero (S := S1x128) off2_zero, View.readCov_unit_zero (S := S1x128) _ off2_zero]
    simp only [View.readAt_eq_ld, h1.read_unread, View.ld_unit_zero (S := S5000x128) off2_zero,
      View.ld_unit_zero (S := S1x128) off2_zero]

/-- A block's column sums, when its row p is the p-th term after `off` of a sequence f. -/
theorem blockSums1 (x : Vec Ideal S5000x128 .f32) (f : ℕ → EReal) (off : ℕ) (j : Fin 128)
    (hx : ∀ p : Fin 5000, x (ix2 p j) = f (off + p.val)) :
    (∑ p : Fin 5000, x (ix2 p j)) = ∑ p ∈ Finset.range 5000, f (off + p)
    ∧ (∑ p : Fin 5000, x (ix2 p j) * x (ix2 p j)) = ∑ p ∈ Finset.range 5000, f (off + p) * f (off + p) := by
  constructor
  · rw [← Fin.sum_univ_eq_sum_range (fun p => f (off + p)) 5000]
    exact Finset.sum_congr rfl fun p _ => hx p
  · rw [← Fin.sum_univ_eq_sum_range (fun p => f (off + p) * f (off + p)) 5000]
    exact Finset.sum_congr rfl fun p _ => by rw [hx p]

/-- Sums over the first n naturals of a sequence that lists a family over Fin n are the sums over the family. -/
theorem rangeSums1 {n : ℕ} (A : Fin n → EReal) (f : ℕ → EReal) (hf : ∀ r (h : r < n), f r = A ⟨r, h⟩) :
    (∑ r ∈ Finset.range n, f r) = ∑ r : Fin n, A r
    ∧ (∑ r ∈ Finset.range n, f r * f r) = ∑ r : Fin n, A r * A r := by
  rw [Finset.sum_fin_eq_sum_range, Finset.sum_fin_eq_sum_range]
  constructor
  · exact Finset.sum_congr rfl fun r hr => by have h := Finset.mem_range.mp hr; rw [dif_pos h, hf r h]
  · exact Finset.sum_congr rfl fun r hr => by have h := Finset.mem_range.mp hr; rw [dif_pos h, hf r h]

variable (V : (c : Dev nD) → (b : Ref sig .tc) → Buf (Elt Ideal) ((c : Thread nD τ).loc b))

/-- Row r of the array the region finds, at column j; zero beyond the array (never read). -/
def rowAt1 (c : Dev nD) (j : Fin 128) (r : ℕ) : EReal :=
  if h : r < 100000 then (V c (Pipeline.arrRef spec1 0) : S100000x128.Idx → EReal) (ix2 ⟨r, h⟩ j) else 0

/-- The printed index maps: the input's row blocks follow the point, the two rows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Entry (p, j) of point t's input block is row 5000 t + p of the array. -/
theorem blockRow1 (c : Dev nD) (t : Fin cfg1.N) (j : Fin 128) (p : Fin 5000) :
    (iblk1 V c 0 t : S5000x128.Idx → EReal) (ix2 p j) = rowAt1 V c j (5000 * t.val + p.val) := by
  obtain ⟨e0, e1, -⟩ := idx1 t
  have ht : t.val < 20 := t.isLt
  have hlt : 5000 * t.val + p.val < 100000 := by have := p.isLt; omega
  unfold rowAt1
  rw [dif_pos hlt]
  show V c (Pipeline.arrRef spec1 0) (((cfg1.win 0).blk t).view.emb (ix2 p j)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * j.val = j.val; omega

/-- THE RUNNING SUMS: after point n the two rows hold, at column j, the sums over the first 5000 (n + 1) rows. -/
theorem running1 (c : Dev nD) : ∀ (n : ℕ) (h : n < cfg1.N) (u : Fin 1) (j : Fin 128),
    (outsAt1 V c n h).1 (ix2 u j) = ∑ r ∈ Finset.range (5000 * (n + 1)), rowAt1 V c j r
    ∧ (outsAt1 V c n h).2 (ix2 u j) = ∑ r ∈ Finset.range (5000 * (n + 1)), rowAt1 V c j r * rowAt1 V c j r
  | 0, h, u, j => by
    have hA := outsAt1_A V c ⟨0, h⟩ (Nat.zero_mod 20)
    have h1 := congrArg Prod.fst hA
    have h2 := congrArg Prod.snd hA
    dsimp only at h1 h2
    obtain ⟨b1, b2⟩ := blockSums1 (iblk1 V c 0 ⟨0, h⟩) (rowAt1 V c j) (5000 * 0) j (blockRow1 V c ⟨0, h⟩ j)
    have e1 : ∀ g : ℕ → EReal, ∑ r ∈ Finset.range (5000 * (0 + 1)), g r = ∑ p ∈ Finset.range 5000, g (5000 * 0 + p) := fun g => by simp
    constructor
    · rw [h1, (caseA1 c _ _ _ _ _ _ _ _ _).1]
      refine (sumStep1 _ _ u j).trans ?_
      rw [(zeroRow1 _).1, zero_add]
      exact b1.trans (e1 (rowAt1 V c j)).symm
    · rw [h2, (caseA1 c _ _ _ _ _ _ _ _ _).2]
      refine (sqStep1 _ _ u j).trans ?_
      rw [(zeroRow1 _).2, zero_add]
      exact b2.trans (e1 (fun r => rowAt1 V c j r * rowAt1 V c j r)).symm
  | n + 1, h, u, j => by
    have hN : n + 1 < 20 := h
    have hB : ¬(⟨n + 1, h⟩ : Fin cfg1.N).val % 20 = 0 := by dsimp only; omega
    have hO := outsAt1_B V c ⟨n + 1, h⟩ hB
    have h1 := congrArg Prod.fst hO
    have h2 := congrArg Prod.snd hO
    dsimp only at h1 h2
    obtain ⟨b1, b2⟩ := blockSums1 (iblk1 V c 0 ⟨n + 1, h⟩) (rowAt1 V c j) (5000 * (n + 1)) j (blockRow1 V c ⟨n + 1, h⟩ j)
    obtain ⟨i1, i2⟩ := running1 c n (Nat.lt_of_succ_lt h) u j
    have e1 : ∀ g : ℕ → EReal, ∑ r ∈ Finset.range (5000 * (n + 1 + 1)), g r
        = ∑ r ∈ Finset.range (5000 * (n + 1)), g r + ∑ p ∈ Finset.range 5000, g (5000 * (n + 1) + p) := fun g => by
      rw [show 5000 * (n + 1 + 1) = 5000 * (n + 1) + 5000 from by ring, Finset.sum_range_add]
    constructor
    · rw [h1, (caseB1 c _ _ _ _ _ _ _ _ _ _ _).1]
      refine (sumStep1 _ _ u j).trans ?_
      exact (congrArg₂ (fun a b => a + b) i1 b1).trans (e1 (rowAt1 V c j)).symm
    · rw [h2, (caseB1 c _ _ _ _ _ _ _ _ _ _ _).2]
      refine (sqStep1 _ _ u j).trans ?_
      exact (congrArg₂ (fun a b => a + b) i2 b2).trans (e1 (fun r => rowAt1 V c j r * rowAt1 V c j r)).symm

/-- The sums over all rows, as the column sums of the array. -/
theorem allRows1 (c : Dev nD) (u : Fin 1) (j : Fin 128) :
    (∑ r ∈ Finset.range 100000, rowAt1 V c j r) = colSum (V c (Pipeline.arrRef spec1 0)) (ix2 u j)
    ∧ (∑ r ∈ Finset.range 100000, rowAt1 V c j r * rowAt1 V c j r) = colSumSq (V c (Pipeline.arrRef spec1 0)) (ix2 u j) :=
  rangeSums1 (fun r : Fin 100000 => realArr S100000x128 (V c (Pipeline.arrRef spec1 0)) (ix2 r j)) (rowAt1 V c j)
    (fun r h => by unfold rowAt1; rw [dif_pos h])

/-- After the last point the two rows are the column sums and the column sums of squares of the whole array. -/
theorem lastRows1 (c : Dev nD) (h : 19 < cfg1.N) :
    (outsAt1 V c 19 h).1 = colSum (V c (Pipeline.arrRef spec1 0))
    ∧ (outsAt1 V c 19 h).2 = colSumSq (V c (Pipeline.arrRef spec1 0)) := by
  have e : 5000 * (19 + 1) = 100000 := by norm_num
  constructor
  · funext y
    obtain ⟨u, j, rfl⟩ : ∃ (u : Fin 1) (j : Fin 128), y = ix2 u j := ⟨y 0, y 1, eq_ix2 y⟩
    have r1 := (running1 V c 19 h u j).1
    rw [e] at r1
    exact r1.trans (allRows1 V c u j).1
  · funext y
    obtain ⟨u, j, rfl⟩ : ∃ (u : Fin 1) (j : Fin 128), y = ix2 u j := ⟨y 0, y 1, eq_ix2 y⟩
    have r2 := (running1 V c 19 h u j).2
    rw [e] at r2
    exact r2.trans (allRows1 V c u j).2

/-- The one write-back of each row, after the last point, writes the whole [1, 128] array. -/
theorem flushedSums1 (c : Dev nD) (t : Fin cfg1.N) :
    ((cfg1.win 1).flush t = true → (dat1 V c).flushed 1 t = ((cfg1.win 1).blk t).view.read (Elt Ideal) (colSum (V c (Pipeline.arrRef spec1 0))))
    ∧ ((cfg1.win 2).flush t = true → (dat1 V c).flushed 2 t = ((cfg1.win 2).blk t).view.read (Elt Ideal) (colSumSq (V c (Pipeline.arrRef spec1 0)))) := by
  have hN : cfg1.N = 20 := N_1
  obtain ⟨-, -, e2, e3, e4, e5⟩ := idx1 t
  constructor
  · intro hf
    have h19 : t.val = 19 := by have := (flush1_1 t).mp hf; have := t.isLt; omega
    have hl : (outsAt1 V c t.val t.isLt).1 = colSum (V c (Pipeline.arrRef spec1 0)) := by
      obtain ⟨n, hn⟩ := t
      dsimp only at h19
      subst h19
      exact (lastRows1 V c hn).1
    show (cfg1.win 1).cut (grid1.coords t) ((dat1 V c).after 1 t) = _
    rw [after1_1, hl]
    have hz' : (fun a => win1_1.index t a * main_v47_0.ty.shape.size a) = fun _ => 0 := funext fun a => by
      match a with
      | ⟨0, _⟩ => show win1_1.index t (0 : Fin 2) * 1 = 0; omega
      | ⟨1, _⟩ => show win1_1.index t (1 : Fin 2) * 128 = 0; omega
    exact (Memref.read_access_unit_zero (Elt Ideal) main_v47_0 hz' (fun a => by rw [congrFun hz' a]; simp) (colSum (V c (Pipeline.arrRef spec1 0)))).symm
  · intro hf
    have h19 : t.val = 19 := by have := (flush1_2 t).mp hf; have := t.isLt; omega
    have hl : (outsAt1 V c t.val t.isLt).2 = colSumSq (V c (Pipeline.arrRef spec1 0)) := by
      obtain ⟨n, hn⟩ := t
      dsimp only at h19
      subst h19
      exact (lastRows1 V c hn).2
    show (cfg1.win 2).cut (grid1.coords t) ((dat1 V c).after 2 t) = _
    rw [after1_2, hl]
    have hz' : (fun a => win1_2.index t a * main_v47_1.ty.shape.size a) = fun _ => 0 := funext fun a => by
      match a with
      | ⟨0, _⟩ => show win1_2.index t (0 : Fin 2) * 1 = 0; omega
      | ⟨1, _⟩ => show win1_2.index t (1 : Fin 2) * 128 = 0; omega
    exact (Memref.read_access_unit_zero (Elt Ideal) main_v47_1 hz' (fun a => by rw [congrFun hz' a]; simp) (colSumSq (V c (Pipeline.arrRef spec1 0)))).symm

/-- An index of a [1, 128] row is in point t's block of it iff each coordinate is in the block's range. -/
theorem memRow1 (t : Fin cfg1.N) (i : S1x128.Idx) :
    (i ∈ ((cfg1.win 1).blk t).view.set ↔ ∀ a : Fin 2, win1_1.index t a * S1x128.size a ≤ (i a).val ∧ (i a).val < win1_1.index t a * S1x128.size a + S1x128.size a)
    ∧ (i ∈ ((cfg1.win 2).blk t).view.set ↔ ∀ a : Fin 2, win1_2.index t a * S1x128.size a ≤ (i a).val ∧ (i a).val < win1_2.index t a * S1x128.size a + S1x128.size a) := by
  constructor
  · show i ∈ ((View.whole main_v47_0).slice (win1_1.rect t)).set ↔ _
    rw [View.set_slice_whole, Rect.mem_set_unit]
    exact Iff.rfl
  · show i ∈ ((View.whole main_v47_1).slice (win1_2.rect t)).set ↔ _
    rw [View.set_slice_whole, Rect.mem_set_unit]
    exact Iff.rfl

/-- THE TWO ROWS AFTER THE REGION: the column sums and the column sums of squares of the array the region finds. -/
theorem finalSums1 (c : Dev nD) :
    (dat1 V c).arrAt 1 cfg1.N = colSum (V c (Pipeline.arrRef spec1 0))
    ∧ (dat1 V c).arrAt 2 cfg1.N = colSumSq (V c (Pipeline.arrRef spec1 0)) := by
  have hN : cfg1.N = 20 := N_1
  have h19 : 19 < cfg1.N := by rw [hN]; norm_num
  obtain ⟨-, -, e2, e3, e4, e5⟩ := idx1 ⟨19, h19⟩
  constructor
  · refine (dat1 V c).arrAt_eq_of_cover 1 _ (fun t hf => (flushedSums1 V c t).1 hf) fun i => ⟨⟨19, h19⟩, (flush1_1 ⟨19, h19⟩).mpr (show 19 % 20 = 19 from rfl), ?_⟩
    rw [(memRow1 ⟨19, h19⟩ i).1]
    intro a
    have h0 : (i 0).val < 1 := (i 0).isLt
    have h1 : (i 1).val < 128 := (i 1).isLt
    match a with
    | ⟨0, _⟩ => show win1_1.index ⟨19, h19⟩ (0 : Fin 2) * 1 ≤ (i 0).val ∧ (i 0).val < win1_1.index ⟨19, h19⟩ (0 : Fin 2) * 1 + 1; omega
    | ⟨1, _⟩ => show win1_1.index ⟨19, h19⟩ (1 : Fin 2) * 128 ≤ (i 1).val ∧ (i 1).val < win1_1.index ⟨19, h19⟩ (1 : Fin 2) * 128 + 128; omega
  · refine (dat1 V c).arrAt_eq_of_cover 2 _ (fun t hf => (flushedSums1 V c t).2 hf) fun i => ⟨⟨19, h19⟩, (flush1_2 ⟨19, h19⟩).mpr (show 19 % 20 = 19 from rfl), ?_⟩
    rw [(memRow1 ⟨19, h19⟩ i).2]
    intro a
    have h0 : (i 0).val < 1 := (i 0).isLt
    have h1 : (i 1).val < 128 := (i 1).isLt
    match a with
    | ⟨0, _⟩ => show win1_2.index ⟨19, h19⟩ (0 : Fin 2) * 1 ≤ (i 0).val ∧ (i 0).val < win1_2.index ⟨19, h19⟩ (0 : Fin 2) * 1 + 1; omega
    | ⟨1, _⟩ => show win1_2.index ⟨19, h19⟩ (1 : Fin 2) * 128 ≤ (i 1).val ∧ (i 1).val < win1_2.index ⟨19, h19⟩ (1 : Fin 2) * 128 + 128; omega

end Cert.KernelIdeal.Layers

end
-- ==== Proof.ColumnSums4.lean ====
/-
  REGION 4: the column sums and the column sums of squares of a [100000, 128] array, accumulated over twenty blocks
  of 5000 rows in two [1, 128] rows that stay in place across the grid.

  At the first point the two rows are set to zero; at every point the block's column sums (of the entries, and of
  their squares) are added to the rows; the rows are written back after the last point.  Addition on the extended
  reals is associative and commutative, so after point n the rows hold the sums over the first 5000 (n + 1) rows of
  the array, and after the last point the sums over all 100000 rows.  Nothing needs to be finite.
-/
import proofs.«149254_j13735305413410_1_alg».proof.Proof.Gen.KernelIdeal.Frame
import proofs.«149254_j13735305413410_1_alg».proof.Proof.LibRegionRows
import proofs.«149254_j13735305413410_1_alg».proof.Proof.LayerFns
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue Cert.LayerFns
open Idealize.ShloMosaic.Pipeline (Dat)

/-- The lane sum of a [5000, 128] block down its rows, read at column j. -/
theorem laneSum4 (src : FVec Ideal S5000x128 .f32) (hacc : (0x00000000#32 : BitVec 32) = 0x00000000#32) (u : Fin 1) (j : Fin 128) :
    shapeCast S1x128 (multiReduction .add [0] S128 src 0x00000000#32 reduces_S5000x128_S128 (.inl rfl) hacc) shapeCasts_S128_S1x128 (ix2 u j)
      = ∑ p : Fin 5000, src (ix2 p j) := by
  refine (shapeCast_a_1a_apply _ _ u j).trans ?_
  refine (Ideal.multiReduction_add_single src 0x00000000#32 reduces_S5000x128_S128 (.inl rfl) hacc (ix1 j)).trans ?_
  refine Finset.sum_congr rfl fun p _ => congrArg src (funext fun a => ?_)
  match a with
  | ⟨0, _⟩ => rfl
  | ⟨1, _⟩ => rfl

/-- One step of the running column sums: the row so far plus the block's column sums. -/
theorem sumStep4 (x : Vec Ideal S5000x128 .f32) (xo : Vec Ideal S1x128 .f32) (u : Fin 1) (j : Fin 128) :
    k4_pay4 (F := Ideal) x xo (ix2 u j) = xo (ix2 u j) + ∑ p : Fin 5000, x (ix2 p j) := by
  unfold k4_pay4 k4_pay3
  simp only [shapeCast_self]
  exact congrArg (xo (ix2 u j) + ·) (laneSum4 x rfl u j)

/-- One step of the running column sums of squares. -/
theorem sqStep4 (x : Vec Ideal S5000x128 .f32) (xo : Vec Ideal S1x128 .f32) (u : Fin 1) (j : Fin 128) :
    k4_pay5 (F := Ideal) x xo (ix2 u j) = xo (ix2 u j) + ∑ p : Fin 5000, x (ix2 p j) * x (ix2 p j) := by
  unfold k4_pay5 k4_pay3
  simp only [shapeCast_self]
  exact congrArg (xo (ix2 u j) + ·) (laneSum4 (mulf x x) rfl u j)

/-- The zero rows the first point stores. -/
theorem zeroRow4 (y : S1x128.Idx) : k4_pay1 (F := Ideal) y = 0 ∧ k4_pay2 (F := Ideal) y = 0 :=
  ⟨by unfold k4_pay1; exact Ideal.ofBits_zero_f32, by unfold k4_pay2; exact Ideal.ofBits_zero_f32⟩

/-- CASE B (every point but the first): the body leaves, in the two rows holding xo1 and xo2, the steps of them. -/
theorem caseB4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S5000x128 .f32) (xo1 xo2 : Vec Ideal S1x128 .f32) :
    out4_B_1 (F := Ideal) c i a1 h1 a2 h2 a3 h3 hc x xo1 xo2 = k4_pay4 x xo1
      ∧ out4_B_2 (F := Ideal) c i a1 h1 a2 h2 a3 h3 hc x xo1 xo2 = k4_pay5 x xo2 := by
  constructor
  · unfold out4_B_1
    rw [View.read_writes_eq_canon _ _ _ (cover4_B_1 c i a1 h1 a2 h2 a3 h3 hc x xo1 xo2)]
    unfold kernelRun4_B
    dsimp only
    rw [View.canon_unit_zero off2_zero]
    simp only [View.readAt_eq_ld, h1.read_unread, h2.read_unread, h3.read_unread, View.ld_unit_zero (S := S5000x128) off2_zero,
      View.ld_unit_zero (S := S1x128) off2_zero]
  · unfold out4_B_2
    rw [View.read_writes_eq_canon _ _ _ (cover4_B_2 c i a1 h1 a2 h2 a3 h3 hc x xo1 xo2)]
    unfold kernelRun4_B
    dsimp only
    rw [View.canon_unit_zero off2_zero]
    simp only [View.readAt_eq_ld, h1.read_unread, h2.read_unread, h3.read_unread, View.ld_unit_zero (S := S5000x128) off2_zero,
      View.ld_unit_zero (S := S1x128) off2_zero]

/-- CASE A (the first point): the rows are zeroed, read back and stepped. -/
theorem caseA4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S5000x128 .f32) :
    out4_A_1 (F := Ideal) c i a1 h1 a2 h2 a3 h3 hc x = k4_pay4 x (k4_pay1 (F := Ideal))
      ∧ out4_A_2 (F := Ideal) c i a1 h1 a2 h2 a3 h3 hc x = k4_pay5 x (k4_pay2 (F := Ideal)) := by
  constructor
  · unfold out4_A_1
    rw [View.read_writes_eq_canon _ _ _ (cover4_A_1 c i a1 h1 a2 h2 a3 h3 hc x)]
    unfold kernelRun4_A
    dsimp only
    sl_unfold_words
    rw [View.canon_cons_unit_zero (S := S1x128) off2_zero, View.readCov_unit_zero (S := S1x128) _ off2_zero]
    simp only [View.readAt_eq_ld, h1.read_unread, View.ld_unit_zero (S := S5000x128) off2_zero,
      View.ld_unit_zero (S := S1x128) off2_zero]
  · unfold out4_A_2
    rw [View.read_writes_eq_canon _ _ _ (cover4_A_2 c i a1 h1 a2 h2 a3 h3 hc x)]
    unfold kernelRun4_A
    dsimp only
    sl_unfold_words
    rw [View.canon_cons_unit_zero (S := S1x128) off2_zero, View.readCov_unit_zero (S := S1x128) _ off2_zero]
    simp only [View.readAt_eq_ld, h1.read_unread, View.ld_unit_zero (S := S5000x128) off2_zero,
      View.ld_unit_zero (S := S1x128) off2_zero]

/-- A block's column sums, when its row p is the p-th term after `off` of a sequence f. -/
theorem blockSums4 (x : Vec Ideal S5000x128 .f32) (f : ℕ → EReal) (off : ℕ) (j : Fin 128)
    (hx : ∀ p : Fin 5000, x (ix2 p j) = f (off + p.val)) :
    (∑ p : Fin 5000, x (ix2 p j)) = ∑ p ∈ Finset.range 5000, f (off + p)
    ∧ (∑ p : Fin 5000, x (ix2 p j) * x (ix2 p j)) = ∑ p ∈ Finset.range 5000, f (off + p) * f (off + p) := by
  constructor
  · rw [← Fin.sum_univ_eq_sum_range (fun p => f (off + p)) 5000]
    exact Finset.sum_congr rfl fun p _ => hx p
  · rw [← Fin.sum_univ_eq_sum_range (fun p => f (off + p) * f (off + p)) 5000]
    exact Finset.sum_congr rfl fun p _ => by rw [hx p]

/-- Sums over the first n naturals of a sequence that lists a family over Fin n are the sums over the family. -/
theorem rangeSums4 {n : ℕ} (A : Fin n → EReal) (f : ℕ → EReal) (hf : ∀ r (h : r < n), f r = A ⟨r, h⟩) :
    (∑ r ∈ Finset.range n, f r) = ∑ r : Fin n, A r
    ∧ (∑ r ∈ Finset.range n, f r * f r) = ∑ r : Fin n, A r * A r := by
  rw [Finset.sum_fin_eq_sum_range, Finset.sum_fin_eq_sum_range]
  constructor
  · exact Finset.sum_congr rfl fun r hr => by have h := Finset.mem_range.mp hr; rw [dif_pos h, hf r h]
  · exact Finset.sum_congr rfl fun r hr => by have h := Finset.mem_range.mp hr; rw [dif_pos h, hf r h]

variable (V : (c : Dev nD) → (b : Ref sig .tc) → Buf (Elt Ideal) ((c : Thread nD τ).loc b))

/-- Row r of the array the region finds, at column j; zero beyond the array (never read). -/
def rowAt4 (c : Dev nD) (j : Fin 128) (r : ℕ) : EReal :=
  if h : r < 100000 then (V c (Pipeline.arrRef spec4 0) : S100000x128.Idx → EReal) (ix2 ⟨r, h⟩ j) else 0

/-- The printed index maps: the input's row blocks follow the point, the two rows stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Entry (p, j) of point t's input block is row 5000 t + p of the array. -/
theorem blockRow4 (c : Dev nD) (t : Fin cfg4.N) (j : Fin 128) (p : Fin 5000) :
    (iblk4 V c 0 t : S5000x128.Idx → EReal) (ix2 p j) = rowAt4 V c j (5000 * t.val + p.val) := by
  obtain ⟨e0, e1, -⟩ := idx4 t
  have ht : t.val < 20 := t.isLt
  have hlt : 5000 * t.val + p.val < 100000 := by have := p.isLt; omega
  unfold rowAt4
  rw [dif_pos hlt]
  show V c (Pipeline.arrRef spec4 0) (((cfg4.win 0).blk t).view.emb (ix2 p j)) = _
  refine congrArg _ (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * j.val = j.val; omega

/-- THE RUNNING SUMS: after point n the two rows hold, at column j, the sums over the first 5000 (n + 1) rows. -/
theorem running4 (c : Dev nD) : ∀ (n : ℕ) (h : n < cfg4.N) (u : Fin 1) (j : Fin 128),
    (outsAt4 V c n h).1 (ix2 u j) = ∑ r ∈ Finset.range (5000 * (n + 1)), rowAt4 V c j r
    ∧ (outsAt4 V c n h).2 (ix2 u j) = ∑ r ∈ Finset.range (5000 * (n + 1)), rowAt4 V c j r * rowAt4 V c j r
  | 0, h, u, j => by
    have hA := outsAt4_A V c ⟨0, h⟩ (Nat.zero_mod 20)
    have h1 := congrArg Prod.fst hA
    have h2 := congrArg Prod.snd hA
    dsimp only at h1 h2
    obtain ⟨b1, b2⟩ := blockSums4 (iblk4 V c 0 ⟨0, h⟩) (rowAt4 V c j) (5000 * 0) j (blockRow4 V c ⟨0, h⟩ j)
    have e1 : ∀ g : ℕ → EReal, ∑ r ∈ Finset.range (5000 * (0 + 1)), g r = ∑ p ∈ Finset.range 5000, g (5000 * 0 + p) := fun g => by simp
    constructor
    · rw [h1, (caseA4 c _ _ _ _ _ _ _ _ _).1]
      refine (sumStep4 _ _ u j).trans ?_
      rw [(zeroRow4 _).1, zero_add]
      exact b1.trans (e1 (rowAt4 V c j)).symm
    · rw [h2, (caseA4 c _ _ _ _ _ _ _ _ _).2]
      refine (sqStep4 _ _ u j).trans ?_
      rw [(zeroRow4 _).2, zero_add]
      exact b2.trans (e1 (fun r => rowAt4 V c j r * rowAt4 V c j r)).symm
  | n + 1, h, u, j => by
    have hN : n + 1 < 20 := h
    have hB : ¬(⟨n + 1, h⟩ : Fin cfg4.N).val % 20 = 0 := by dsimp only; omega
    have hO := outsAt4_B V c ⟨n + 1, h⟩ hB
    have h1 := congrArg Prod.fst hO
    have h2 := congrArg Prod.snd hO
    dsimp only at h1 h2
    obtain ⟨b1, b2⟩ := blockSums4 (iblk4 V c 0 ⟨n + 1, h⟩) (rowAt4 V c j) (5000 * (n + 1)) j (blockRow4 V c ⟨n + 1, h⟩ j)
    obtain ⟨i1, i2⟩ := running4 c n (Nat.lt_of_succ_lt h) u j
    have e1 : ∀ g : ℕ → EReal, ∑ r ∈ Finset.range (5000 * (n + 1 + 1)), g r
        = ∑ r ∈ Finset.range (5000 * (n + 1)), g r + ∑ p ∈ Finset.range 5000, g (5000 * (n + 1) + p) := fun g => by
      rw [show 5000 * (n + 1 + 1) = 5000 * (n + 1) + 5000 from by ring, Finset.sum_range_add]
    constructor
    · rw [h1, (caseB4 c _ _ _ _ _ _ _ _ _ _ _).1]
      refine (sumStep4 _ _ u j).trans ?_
      exact (congrArg₂ (fun a b => a + b) i1 b1).trans (e1 (rowAt4 V c j)).symm
    · rw [h2, (caseB4 c _ _ _ _ _ _ _ _ _ _ _).2]
      refine (sqStep4 _ _ u j).trans ?_
      exact (congrArg₂ (fun a b => a + b) i2 b2).trans (e1 (fun r => rowAt4 V c j r * rowAt4 V c j r)).symm

/-- The sums over all rows, as the column sums of the array. -/
theorem allRows4 (c : Dev nD) (u : Fin 1) (j : Fin 128) :
    (∑ r ∈ Finset.range 100000, rowAt4 V c j r) = colSum (V c (Pipeline.arrRef spec4 0)) (ix2 u j)
    ∧ (∑ r ∈ Finset.range 100000, rowAt4 V c j r * rowAt4 V c j r) = colSumSq (V c (Pipeline.arrRef spec4 0)) (ix2 u j) :=
  rangeSums4 (fun r : Fin 100000 => realArr S100000x128 (V c (Pipeline.arrRef spec4 0)) (ix2 r j)) (rowAt4 V c j)
    (fun r h => by unfold rowAt4; rw [dif_pos h])

/-- After the last point the two rows are the column sums and the column sums of squares of the whole array. -/
theorem lastRows4 (c : Dev nD) (h : 19 < cfg4.N) :
    (outsAt4 V c 19 h).1 = colSum (V c (Pipeline.arrRef spec4 0))
    ∧ (outsAt4 V c 19 h).2 = colSumSq (V c (Pipeline.arrRef spec4 0)) := by
  have e : 5000 * (19 + 1) = 100000 := by norm_num
  constructor
  · funext y
    obtain ⟨u, j, rfl⟩ : ∃ (u : Fin 1) (j : Fin 128), y = ix2 u j := ⟨y 0, y 1, eq_ix2 y⟩
    have r1 := (running4 V c 19 h u j).1
    rw [e] at r1
    exact r1.trans (allRows4 V c u j).1
  · funext y
    obtain ⟨u, j, rfl⟩ : ∃ (u : Fin 1) (j : Fin 128), y = ix2 u j := ⟨y 0, y 1, eq_ix2 y⟩
    have r2 := (running4 V c 19 h u j).2
    rw [e] at r2
    exact r2.trans (allRows4 V c u j).2

/-- The one write-back of each row, after the last point, writes the whole [1, 128] array. -/
theorem flushedSums4 (c : Dev nD) (t : Fin cfg4.N) :
    ((cfg4.win 1).flush t = true → (dat4 V c).flushed 1 t = ((cfg4.win 1).blk t).view.read (Elt Ideal) (colSum (V c (Pipeline.arrRef spec4 0))))
    ∧ ((cfg4.win 2).flush t = true → (dat4 V c).flushed 2 t = ((cfg4.win 2).blk t).view.read (Elt Ideal) (colSumSq (V c (Pipeline.arrRef spec4 0)))) := by
  have hN : cfg4.N = 20 := N_4
  obtain ⟨-, -, e2, e3, e4, e5⟩ := idx4 t
  constructor
  · intro hf
    have h19 : t.val = 19 := by have := (flush4_1 t).mp hf; have := t.isLt; omega
    have hl : (outsAt4 V c t.val t.isLt).1 = colSum (V c (Pipeline.arrRef spec4 0)) := by
      obtain ⟨n, hn⟩ := t
      dsimp only at h19
      subst h19
      exact (lastRows4 V c hn).1
    show (cfg4.win 1).cut (grid4.coords t) ((dat4 V c).after 1 t) = _
    rw [after4_1, hl]
    have hz' : (fun a => win4_1.index t a * main_v74_0.ty.shape.size a) = fun _ => 0 := funext fun a => by
      match a with
      | ⟨0, _⟩ => show win4_1.index t (0 : Fin 2) * 1 = 0; omega
      | ⟨1, _⟩ => show win4_1.index t (1 : Fin 2) * 128 = 0; omega
    exact (Memref.read_access_unit_zero (Elt Ideal) main_v74_0 hz' (fun a => by rw [congrFun hz' a]; simp) (colSum (V c (Pipeline.arrRef spec4 0)))).symm
  · intro hf
    have h19 : t.val = 19 := by have := (flush4_2 t).mp hf; have := t.isLt; omega
    have hl : (outsAt4 V c t.val t.isLt).2 = colSumSq (V c (Pipeline.arrRef spec4 0)) := by
      obtain ⟨n, hn⟩ := t
      dsimp only at h19
      subst h19
      exact (lastRows4 V c hn).2
    show (cfg4.win 2).cut (grid4.coords t) ((dat4 V c).after 2 t) = _
    rw [after4_2, hl]
    have hz' : (fun a => win4_2.index t a * main_v74_1.ty.shape.size a) = fun _ => 0 := funext fun a => by
      match a with
      | ⟨0, _⟩ => show win4_2.index t (0 : Fin 2) * 1 = 0; omega
      | ⟨1, _⟩ => show win4_2.index t (1 : Fin 2) * 128 = 0; omega
    exact (Memref.read_access_unit_zero (Elt Ideal) main_v74_1 hz' (fun a => by rw [congrFun hz' a]; simp) (colSumSq (V c (Pipeline.arrRef spec4 0)))).symm

/-- An index of a [1, 128] row is in point t's block of it iff each coordinate is in the block's range. -/
theorem memRow4 (t : Fin cfg4.N) (i : S1x128.Idx) :
    (i ∈ ((cfg4.win 1).blk t).view.set ↔ ∀ a : Fin 2, win4_1.index t a * S1x128.size a ≤ (i a).val ∧ (i a).val < win4_1.index t a * S1x128.size a + S1x128.size a)
    ∧ (i ∈ ((cfg4.win 2).blk t).view.set ↔ ∀ a : Fin 2, win4_2.index t a * S1x128.size a ≤ (i a).val ∧ (i a).val < win4_2.index t a * S1x128.size a + S1x128.size a) := by
  constructor
  · show i ∈ ((View.whole main_v74_0).slice (win4_1.rect t)).set ↔ _
    rw [View.set_slice_whole, Rect.mem_set_unit]
    exact Iff.rfl
  · show i ∈ ((View.whole main_v74_1).slice (win4_2.rect t)).set ↔ _
    rw [View.set_slice_whole, Rect.mem_set_unit]
    exact Iff.rfl

/-- THE TWO ROWS AFTER THE REGION: the column sums and the column sums of squares of the array the region finds. -/
theorem finalSums4 (c : Dev nD) :
    (dat4 V c).arrAt 1 cfg4.N = colSum (V c (Pipeline.arrRef spec4 0))
    ∧ (dat4 V c).arrAt 2 cfg4.N = colSumSq (V c (Pipeline.arrRef spec4 0)) := by
  have hN : cfg4.N = 20 := N_4
  have h19 : 19 < cfg4.N := by rw [hN]; norm_num
  obtain ⟨-, -, e2, e3, e4, e5⟩ := idx4 ⟨19, h19⟩
  constructor
  · refine (dat4 V c).arrAt_eq_of_cover 1 _ (fun t hf => (flushedSums4 V c t).1 hf) fun i => ⟨⟨19, h19⟩, (flush4_1 ⟨19, h19⟩).mpr (show 19 % 20 = 19 from rfl), ?_⟩
    rw [(memRow4 ⟨19, h19⟩ i).1]
    intro a
    have h0 : (i 0).val < 1 := (i 0).isLt
    have h1 : (i 1).val < 128 := (i 1).isLt
    match a with
    | ⟨0, _⟩ => show win4_1.index ⟨19, h19⟩ (0 : Fin 2) * 1 ≤ (i 0).val ∧ (i 0).val < win4_1.index ⟨19, h19⟩ (0 : Fin 2) * 1 + 1; omega
    | ⟨1, _⟩ => show win4_1.index ⟨19, h19⟩ (1 : Fin 2) * 128 ≤ (i 1).val ∧ (i 1).val < win4_1.index ⟨19, h19⟩ (1 : Fin 2) * 128 + 128; omega
  · refine (dat4 V c).arrAt_eq_of_cover 2 _ (fun t hf => (flushedSums4 V c t).2 hf) fun i => ⟨⟨19, h19⟩, (flush4_2 ⟨19, h19⟩).mpr (show 19 % 20 = 19 from rfl), ?_⟩
    rw [(memRow4 ⟨19, h19⟩ i).2]
    intro a
    have h0 : (i 0).val < 1 := (i 0).isLt
    have h1 : (i 1).val < 128 := (i 1).isLt
    match a with
    | ⟨0, _⟩ => show win4_2.index ⟨19, h19⟩ (0 : Fin 2) * 1 ≤ (i 0).val ∧ (i 0).val < win4_2.index ⟨19, h19⟩ (0 : Fin 2) * 1 + 1; omega
    | ⟨1, _⟩ => show win4_2.index ⟨19, h19⟩ (1 : Fin 2) * 128 ≤ (i 1).val ∧ (i 1).val < win4_2.index ⟨19, h19⟩ (1 : Fin 2) * 128 + 128; omega

end Cert.KernelIdeal.Layers

end
-- ==== Proof.Normalise2.lean ====
/-
  REGION 2: batch normalisation applied, then the rectifier, block of rows by block of rows.

  Point t loads rows 5000 t … 5000 t + 4999 of the [100000, 128] input and the four [1, 128] rows mean, variance,
  scale, shift (whole at every point) and writes  max (((x − mean) · rsqrt (variance + ε)) · scale + shift, 0)  to the
  same rows of the result, each row vector broadcast down the rows.  The operation is entrywise in x, so the blocks
  are the rows of the same function of the whole input, and the twenty blocks tile the result.
-/
import proofs.«149254_j13735305413410_1_alg».proof.Proof.Gen.KernelIdeal.Frame
import proofs.«149254_j13735305413410_1_alg».proof.Proof.LibRegionRows
import proofs.«149254_j13735305413410_1_alg».proof.Proof.LayerFns
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue Cert.LayerFns
open Idealize.ShloMosaic.Pipeline (Dat)

/-- The body's result at the block's index (p, j) from the block's entry there and the four rows at j. -/
theorem normEntry2 (x0 : Vec Ideal S5000x128 .f32) (v mn g b : Vec Ideal S1x128 .f32) (p : Fin 5000) (j : Fin 128) :
    k2_pay1 (F := Ideal) x0 v mn g b (ix2 p j)
      = max ((x0 (ix2 p j) - mn (ix2 (0 : Fin 1) j)) * Ideal.rsqrt (v (ix2 (0 : Fin 1) j) + Ideal.ofBits .f32 0x3727C5AC#32)
          * g (ix2 (0 : Fin 1) j) + b (ix2 (0 : Fin 1) j)) (Ideal.ofBits .f32 0x00000000#32) := by
  unfold k2_pay1
  simp only [shapeCast_self]
  rw [maximumf_apply, addf_apply, mulf_apply, mulf_apply, subf_apply]
  rw [broadcastTo_1b_ab_apply _ _ p j, broadcastTo_1b_ab_apply _ _ p j, broadcastTo_1b_ab_apply _ _ p j,
    broadcastTo_1b_ab_apply _ _ p j]
  rfl

/-- The body's result at the block's index y is the whole-array function at the array's index i, when the block's
    entry at y is the array's at i, i names y's column, and the four rows are the arrays' rows. -/
theorem normBlock2 (x0 : Vec Ideal S5000x128 .f32) (v mn g b : Vec Ideal S1x128 .f32)
    (X : S100000x128.Idx → EReal) (Mn Vr G B : S1x128.Idx → EReal) (off : ℕ) (y : S5000x128.Idx) (i : S100000x128.Idx)
    (hi0 : (i 0).val = off + (y 0).val) (hi1 : (i 1).val = (y 1).val)
    (hx : ∀ (u : S5000x128.Idx) (z : S100000x128.Idx), (z 0).val = off + (u 0).val → (z 1).val = (u 1).val → x0 u = X z)
    (hmn : ∀ u, mn u = Mn u) (hv : ∀ u, v u = Vr u) (hg : ∀ u, g u = G u) (hb : ∀ u, b u = B u) :
    k2_pay1 (F := Ideal) x0 v mn g b y = normRelu X Mn Vr G B i := by
  obtain ⟨p, j, rfl⟩ : ∃ (p : Fin 5000) (j : Fin 128), y = ix2 p j := ⟨y 0, y 1, eq_ix2 y⟩
  have hj : i 1 = j := Fin.ext hi1
  rw [normEntry2, hx _ i hi0 hi1, hmn, hv, hg, hb]
  unfold normRelu
  rw [hj]

variable (V : (c : Dev nD) → (b : Ref sig .tc) → Buf (Elt Ideal) ((c : Thread nD τ).loc b))

/-- The printed index maps over the grid: the row blocks follow the point, the four rows stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row window 1's block at any point is the whole [1, 128] array. -/
theorem rowBlock2_1 (c : Dev nD) (t : Fin cfg2.N) (u : S1x128.Idx) :
    (iblk2 V c 1 t : S1x128.Idx → EReal) u = (V c (Pipeline.arrRef spec2 1) : S1x128.Idx → EReal) u := by
  obtain ⟨e0, e1, e2, e3, e4, e5, e6, e7, e8, e9, e10, e11⟩ := idx2 t
  show V c (Pipeline.arrRef spec2 1) (((cfg2.win 1).blk t).view.emb u) = V c (Pipeline.arrRef spec2 1) u
  refine congrArg _ (funext fun a => Fin.ext ?_)
  match a with
  | ⟨0, _⟩ => show win2_1.index t (0 : Fin 2) * 1 + 1 * (u 0).val = (u 0).val; omega
  | ⟨1, _⟩ => show win2_1.index t (1 : Fin 2) * 128 + 1 * (u 1).val = (u 1).val; omega

/-- Row window 2's block at any point is the whole [1, 128] array. -/
theorem rowBlock2_2 (c : Dev nD) (t : Fin cfg2.N) (u : S1x128.Idx) :
    (iblk2 V c 2 t : S1x128.Idx → EReal) u = (V c (Pipeline.arrRef spec2 2) : S1x128.Idx → EReal) u := by
  obtain ⟨e0, e1, e2, e3, e4, e5, e6, e7, e8, e9, e10, e11⟩ := idx2 t
  show V c (Pipeline.arrRef spec2 2) (((cfg2.win 2).blk t).view.emb u) = V c (Pipeline.arrRef spec2 2) u
  refine congrArg _ (funext fun a => Fin.ext ?_)
  match a with
  | ⟨0, _⟩ => show win2_2.index t (0 : Fin 2) * 1 + 1 * (u 0).val = (u 0).val; omega
  | ⟨1, _⟩ => show win2_2.index t (1 : Fin 2) * 128 + 1 * (u 1).val = (u 1).val; omega

/-- Row window 3's block at any point is the whole [1, 128] array. -/
theorem rowBlock2_3 (c : Dev nD) (t : Fin cfg2.N) (u : S1x128.Idx) :
    (iblk2 V c 3 t : S1x128.Idx → EReal) u = (V c (Pipeline.arrRef spec2 3) : S1x128.Idx → EReal) u := by
  obtain ⟨e0, e1, e2, e3, e4, e5, e6, e7, e8, e9, e10, e11⟩ := idx2 t
  show V c (Pipeline.arrRef spec2 3) (((cfg2.win 3).blk t).view.emb u) = V c (Pipeline.arrRef spec2 3) u
  refine congrArg _ (funext fun a => Fin.ext ?_)
  match a with
  | ⟨0, _⟩ => show win2_3.index t (0 : Fin 2) * 1 + 1 * (u 0).val = (u 0).val; omega
  | ⟨1, _⟩ => show win2_3.index t (1 : Fin 2) * 128 + 1 * (u 1).val = (u 1).val; omega

/-- Row window 4's block at any point is the whole [1, 128] array. -/
theorem rowBlock2_4 (c : Dev nD) (t : Fin cfg2.N) (u : S1x128.Idx) :
    (iblk2 V c 4 t : S1x128.Idx → EReal) u = (V c (Pipeline.arrRef spec2 4) : S1x128.Idx → EReal) u := by
  obtain ⟨e0, e1, e2, e3, e4, e5, e6, e7, e8, e9, e10, e11⟩ := idx2 t
  show V c (Pipeline.arrRef spec2 4) (((cfg2.win 4).blk t).view.emb u) = V c (Pipeline.arrRef spec2 4) u
  refine congrArg _ (funext fun a => Fin.ext ?_)
  match a with
  | ⟨0, _⟩ => show win2_4.index t (0 : Fin 2) * 1 + 1 * (u 0).val = (u 0).val; omega
  | ⟨1, _⟩ => show win2_4.index t (1 : Fin 2) * 128 + 1 * (u 1).val = (u 1).val; omega

/-- The input window's block at point t reads rows 5000 t … of the input array. -/
theorem xBlock2 (c : Dev nD) (t : Fin cfg2.N) (u : S5000x128.Idx) (z : S100000x128.Idx)
    (h0 : (z 0).val = t.val * 5000 + (u 0).val) (h1 : (z 1).val = (u 1).val) :
    (iblk2 V c 0 t : S5000x128.Idx → EReal) u = (V c (Pipeline.arrRef spec2 0) : S100000x128.Idx → EReal) z := by
  obtain ⟨e0, e1, e2, e3, e4, e5, e6, e7, e8, e9, e10, e11⟩ := idx2 t
  show V c (Pipeline.arrRef spec2 0) (((cfg2.win 0).blk t).view.emb u) = V c (Pipeline.arrRef spec2 0) z
  refine congrArg _ (funext fun a => Fin.ext ?_)
  match a with
  | ⟨0, _⟩ => show win2_0.index t (0 : Fin 2) * 5000 + 1 * (u 0).val = (z 0).val; omega
  | ⟨1, _⟩ => show win2_0.index t (1 : Fin 2) * 128 + 1 * (u 1).val = (z 1).val; omega

set_option maxHeartbeats 800000 in
/-- What point t writes back is block t of the whole-array function. -/
theorem flushedNorm2 (c : Dev nD) (t : Fin cfg2.N) :
    (dat2 V c).flushed 5 t = ((cfg2.win 5).blk t).view.read (Elt Ideal)
      (normRelu (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero off2_zero]
  simp only [View.ld_unit_zero (S := S5000x128) off2_zero, View.ld_unit_zero (S := S1x128) off2_zero]
  obtain ⟨e0, e1, e2, e3, e4, e5, e6, e7, e8, e9, e10, e11⟩ := idx2 t
  funext y
  refine normBlock2 _ _ _ _ _ _ _ _ _ _ (t.val * 5000) y _ ?_ ?_ (xBlock2 V c t) (rowBlock2_1 V c t) (rowBlock2_2 V c t)
    (rowBlock2_3 V c t) (rowBlock2_4 V c t)
  · show win2_5.index t (0 : Fin 2) * 5000 + 1 * (y 0).val = _
    omega
  · show win2_5.index t (1 : Fin 2) * 128 + 1 * (y 1).val = _
    omega

/-- An index of the result is in point t's block iff its row is among the block's 5000 rows. -/
theorem memBlk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56).slice (win2_5.rect t)).set ↔ _
  rw [View.set_slice_whole, Rect.mem_set_unit]
  exact Iff.rfl

/-- The twenty blocks cover the result: row r is in the block of point r / 5000. -/
theorem coverNorm2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨e0, e1, e2, e3, e4, e5, e6, e7, e8, e9, e10, e11⟩ := idx2 t
  have ht : t.val = (i 0).val / 5000 := rfl
  refine ⟨t, flush2_5 t, ?_⟩
  rw [memBlk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE RESULT ARRAY AFTER THE REGION. -/
theorem finalNorm2 (c : Dev nD) :
    (dat2 V c).arrAt 5 cfg2.N
      = normRelu (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushedNorm2 V c t) (coverNorm2)

end Cert.KernelIdeal.Layers

end
-- ==== Proof.Normalise5.lean ====
/-
  REGION 5: batch normalisation applied, then the rectifier, block of rows by block of rows.

  Point t loads rows 5000 t … 5000 t + 4999 of the [100000, 128] input and the four [1, 128] rows mean, variance,
  scale, shift (whole at every point) and writes  max (((x − mean) · rsqrt (variance + ε)) · scale + shift, 0)  to the
  same rows of the result, each row vector broadcast down the rows.  The operation is entrywise in x, so the blocks
  are the rows of the same function of the whole input, and the twenty blocks tile the result.
-/
import proofs.«149254_j13735305413410_1_alg».proof.Proof.Gen.KernelIdeal.Frame
import proofs.«149254_j13735305413410_1_alg».proof.Proof.LibRegionRows
import proofs.«149254_j13735305413410_1_alg».proof.Proof.LayerFns
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.SL.Sem Idealize.ShloMosaic.ValueIdx
open Cert.KernelIdeal Cert.KernelIdeal.Gen Cert.KernelIdeal.RegionValue Cert.LayerFns
open Idealize.ShloMosaic.Pipeline (Dat)

/-- The body's result at the block's index (p, j) from the block's entry there and the four rows at j. -/
theorem normEntry5 (x0 : Vec Ideal S5000x128 .f32) (v mn g b : Vec Ideal S1x128 .f32) (p : Fin 5000) (j : Fin 128) :
    k5_pay1 (F := Ideal) x0 v mn g b (ix2 p j)
      = max ((x0 (ix2 p j) - mn (ix2 (0 : Fin 1) j)) * Ideal.rsqrt (v (ix2 (0 : Fin 1) j) + Ideal.ofBits .f32 0x3727C5AC#32)
          * g (ix2 (0 : Fin 1) j) + b (ix2 (0 : Fin 1) j)) (Ideal.ofBits .f32 0x00000000#32) := by
  unfold k5_pay1
  simp only [shapeCast_self]
  rw [maximumf_apply, addf_apply, mulf_apply, mulf_apply, subf_apply]
  rw [broadcastTo_1b_ab_apply _ _ p j, broadcastTo_1b_ab_apply _ _ p j, broadcastTo_1b_ab_apply _ _ p j,
    broadcastTo_1b_ab_apply _ _ p j]
  rfl

/-- The body's result at the block's index y is the whole-array function at the array's index i, when the block's
    entry at y is the array's at i, i names y's column, and the four rows are the arrays' rows. -/
theorem normBlock5 (x0 : Vec Ideal S5000x128 .f32) (v mn g b : Vec Ideal S1x128 .f32)
    (X : S100000x128.Idx → EReal) (Mn Vr G B : S1x128.Idx → EReal) (off : ℕ) (y : S5000x128.Idx) (i : S100000x128.Idx)
    (hi0 : (i 0).val = off + (y 0).val) (hi1 : (i 1).val = (y 1).val)
    (hx : ∀ (u : S5000x128.Idx) (z : S100000x128.Idx), (z 0).val = off + (u 0).val → (z 1).val = (u 1).val → x0 u = X z)
    (hmn : ∀ u, mn u = Mn u) (hv : ∀ u, v u = Vr u) (hg : ∀ u, g u = G u) (hb : ∀ u, b u = B u) :
    k5_pay1 (F := Ideal) x0 v mn g b y = normRelu X Mn Vr G B i := by
  obtain ⟨p, j, rfl⟩ : ∃ (p : Fin 5000) (j : Fin 128), y = ix2 p j := ⟨y 0, y 1, eq_ix2 y⟩
  have hj : i 1 = j := Fin.ext hi1
  rw [normEntry5, hx _ i hi0 hi1, hmn, hv, hg, hb]
  unfold normRelu
  rw [hj]

variable (V : (c : Dev nD) → (b : Ref sig .tc) → Buf (Elt Ideal) ((c : Thread nD τ).loc b))

/-- The printed index maps over the grid: the row blocks follow the point, the four rows stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row window 1's block at any point is the whole [1, 128] array. -/
theorem rowBlock5_1 (c : Dev nD) (t : Fin cfg5.N) (u : S1x128.Idx) :
    (iblk5 V c 1 t : S1x128.Idx → EReal) u = (V c (Pipeline.arrRef spec5 1) : S1x128.Idx → EReal) u := by
  obtain ⟨e0, e1, e2, e3, e4, e5, e6, e7, e8, e9, e10, e11⟩ := idx5 t
  show V c (Pipeline.arrRef spec5 1) (((cfg5.win 1).blk t).view.emb u) = V c (Pipeline.arrRef spec5 1) u
  refine congrArg _ (funext fun a => Fin.ext ?_)
  match a with
  | ⟨0, _⟩ => show win5_1.index t (0 : Fin 2) * 1 + 1 * (u 0).val = (u 0).val; omega
  | ⟨1, _⟩ => show win5_1.index t (1 : Fin 2) * 128 + 1 * (u 1).val = (u 1).val; omega

/-- Row window 2's block at any point is the whole [1, 128] array. -/
theorem rowBlock5_2 (c : Dev nD) (t : Fin cfg5.N) (u : S1x128.Idx) :
    (iblk5 V c 2 t : S1x128.Idx → EReal) u = (V c (Pipeline.arrRef spec5 2) : S1x128.Idx → EReal) u := by
  obtain ⟨e0, e1, e2, e3, e4, e5, e6, e7, e8, e9, e10, e11⟩ := idx5 t
  show V c (Pipeline.arrRef spec5 2) (((cfg5.win 2).blk t).view.emb u) = V c (Pipeline.arrRef spec5 2) u
  refine congrArg _ (funext fun a => Fin.ext ?_)
  match a with
  | ⟨0, _⟩ => show win5_2.index t (0 : Fin 2) * 1 + 1 * (u 0).val = (u 0).val; omega
  | ⟨1, _⟩ => show win5_2.index t (1 : Fin 2) * 128 + 1 * (u 1).val = (u 1).val; omega

/-- Row window 3's block at any point is the whole [1, 128] array. -/
theorem rowBlock5_3 (c : Dev nD) (t : Fin cfg5.N) (u : S1x128.Idx) :
    (iblk5 V c 3 t : S1x128.Idx → EReal) u = (V c (Pipeline.arrRef spec5 3) : S1x128.Idx → EReal) u := by
  obtain ⟨e0, e1, e2, e3, e4, e5, e6, e7, e8, e9, e10, e11⟩ := idx5 t
  show V c (Pipeline.arrRef spec5 3) (((cfg5.win 3).blk t).view.emb u) = V c (Pipeline.arrRef spec5 3) u
  refine congrArg _ (funext fun a => Fin.ext ?_)
  match a with
  | ⟨0, _⟩ => show win5_3.index t (0 : Fin 2) * 1 + 1 * (u 0).val = (u 0).val; omega
  | ⟨1, _⟩ => show win5_3.index t (1 : Fin 2) * 128 + 1 * (u 1).val = (u 1).val; omega

/-- Row window 4's block at any point is the whole [1, 128] array. -/
theorem rowBlock5_4 (c : Dev nD) (t : Fin cfg5.N) (u : S1x128.Idx) :
    (iblk5 V c 4 t : S1x128.Idx → EReal) u = (V c (Pipeline.arrRef spec5 4) : S1x128.Idx → EReal) u := by
  obtain ⟨e0, e1, e2, e3, e4, e5, e6, e7, e8, e9, e10, e11⟩ := idx5 t
  show V c (Pipeline.arrRef spec5 4) (((cfg5.win 4).blk t).view.emb u) = V c (Pipeline.arrRef spec5 4) u
  refine congrArg _ (funext fun a => Fin.ext ?_)
  match a with
  | ⟨0, _⟩ => show win5_4.index t (0 : Fin 2) * 1 + 1 * (u 0).val = (u 0).val; omega
  | ⟨1, _⟩ => show win5_4.index t (1 : Fin 2) * 128 + 1 * (u 1).val = (u 1).val; omega

/-- The input window's block at point t reads rows 5000 t … of the input array. -/
theorem xBlock5 (c : Dev nD) (t : Fin cfg5.N) (u : S5000x128.Idx) (z : S100000x128.Idx)
    (h0 : (z 0).val = t.val * 5000 + (u 0).val) (h1 : (z 1).val = (u 1).val) :
    (iblk5 V c 0 t : S5000x128.Idx → EReal) u = (V c (Pipeline.arrRef spec5 0) : S100000x128.Idx → EReal) z := by
  obtain ⟨e0, e1, e2, e3, e4, e5, e6, e7, e8, e9, e10, e11⟩ := idx5 t
  show V c (Pipeline.arrRef spec5 0) (((cfg5.win 0).blk t).view.emb u) = V c (Pipeline.arrRef spec5 0) z
  refine congrArg _ (funext fun a => Fin.ext ?_)
  match a with
  | ⟨0, _⟩ => show win5_0.index t (0 : Fin 2) * 5000 + 1 * (u 0).val = (z 0).val; omega
  | ⟨1, _⟩ => show win5_0.index t (1 : Fin 2) * 128 + 1 * (u 1).val = (z 1).val; omega

set_option maxHeartbeats 800000 in
/-- What point t writes back is block t of the whole-array function. -/
theorem flushedNorm5 (c : Dev nD) (t : Fin cfg5.N) :
    (dat5 V c).flushed 5 t = ((cfg5.win 5).blk t).view.read (Elt Ideal)
      (normRelu (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero off2_zero]
  simp only [View.ld_unit_zero (S := S5000x128) off2_zero, View.ld_unit_zero (S := S1x128) off2_zero]
  obtain ⟨e0, e1, e2, e3, e4, e5, e6, e7, e8, e9, e10, e11⟩ := idx5 t
  funext y
  refine normBlock5 _ _ _ _ _ _ _ _ _ _ (t.val * 5000) y _ ?_ ?_ (xBlock5 V c t) (rowBlock5_1 V c t) (rowBlock5_2 V c t)
    (rowBlock5_3 V c t) (rowBlock5_4 V c t)
  · show win5_5.index t (0 : Fin 2) * 5000 + 1 * (y 0).val = _
    omega
  · show win5_5.index t (1 : Fin 2) * 128 + 1 * (y 1).val = _
    omega

/-- An index of the result is in point t's block iff its row is among the block's 5000 rows. -/
theorem memBlk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v83).slice (win5_5.rect t)).set ↔ _
  rw [View.set_slice_whole, Rect.mem_set_unit]
  exact Iff.rfl

/-- The twenty blocks cover the result: row r is in the block of point r / 5000. -/
theorem coverNorm5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  let t : Fin cfg5.N := ⟨(i 0).val / 5000, by show (i 0).val / 5000 < 20; omega⟩
  obtain ⟨e0, e1, e2, e3, e4, e5, e6, e7, e8, e9, e10, e11⟩ := idx5 t
  have ht : t.val = (i 0).val / 5000 := rfl
  refine ⟨t, flush5_5 t, ?_⟩
  rw [memBlk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE RESULT ARRAY AFTER THE REGION. -/
theorem finalNorm5 (c : Dev nD) :
    (dat5 V c).arrAt 5 cfg5.N
      = normRelu (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushedNorm5 V c t) (coverNorm5)

end Cert.KernelIdeal.Layers

end
-- ==== Proof.KeepEdges.lean ====
/-
  THE BUFFERS THAT TRAVEL ACROSS SEGMENTS UNCHANGED: the edge endpoints, the edge weights and the layer inputs.
  A buffer that no operation of a stretch of host operations writes, and that is not an array of a kernel region,
  holds after the segment what it held before it.  A region's input array is left as the region found it.  Chained
  over the segments of the program, this carries the edge lists, the edge weights, the layer inputs and the argument
  arrays from where they are computed (or launched) to where they are used.
-/
import proofs.«149254_j13735305413410_1_alg».proof.Proof.Gen.KernelIdeal.Frame

set_option maxRecDepth 16384

noncomputable section

namespace Cert.KernelIdeal.Layers

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem keep_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_9_3 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem keep_v3_14_3 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem keep_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v6_9_3 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem keep_v6_14_3 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem keep_v29_4_3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem keep_v29_9_3 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem keep_v29_14_3 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := StableHlo.after_of_forall_not_mem (b := Proc.devRef .tc main_v29) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v29) := W11_of_ne m ρ c main_v29 (by decide)
    _ = W9 m ρ c (Proc.devRef .tc main_v29) := StableHlo.after_of_forall_not_mem (b := Proc.devRef .tc main_v29) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem keep_v46_7_5 (c : Dev nD) : W7 m ρ c (Proc.devRef .tc main_v46) = W5 m ρ c (Proc.devRef .tc main_v46) :=
  calc W7 m ρ c (Proc.devRef .tc main_v46)
    _ = W6 m ρ c (Proc.devRef .tc main_v46) := StableHlo.after_of_forall_not_mem (b := Proc.devRef .tc main_v46) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v46) := (W6_arr m ρ c 0).trans (((dat1 (V5 m ρ) c).arrAt_in 0 rfl _).trans (A_eq1 (V5 m ρ) c 0))

theorem keep_v73_12_10 (c : Dev nD) : W12 m ρ c (Proc.devRef .tc main_v73) = W10 m ρ c (Proc.devRef .tc main_v73) :=
  calc W12 m ρ c (Proc.devRef .tc main_v73)
    _ = W11 m ρ c (Proc.devRef .tc main_v73) := StableHlo.after_of_forall_not_mem (b := Proc.devRef .tc main_v73) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v73) := (W11_arr m ρ c 0).trans (((dat4 (V10 m ρ) c).arrAt_in 0 rfl _).trans (A_eq4 (V10 m ρ) c 0))

end Cert.KernelIdeal.Layers

end
-- ==== Proof.KeepArgs.lean ====
/-
  THE ARGUMENT ARRAYS AT THE SEGMENTS THAT READ THEM: each is as launched.
  A buffer that no operation of a stretch of host operations writes, and that is not an array of a kernel region,
  holds after the segment what it held before it.  A region's input array is left as the region found it.  Chained
  over the segments of the program, this carries the edge lists, the edge weights, the layer inputs and the argument
  arrays from where they are computed (or launched) to where they are used.
-/
import proofs.«149254_j13735305413410_1_alg».proof.Proof.Gen.KernelIdeal.Frame

set_option maxRecDepth 16384

noncomputable section

namespace Cert.KernelIdeal.Layers

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_6_0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_9_0 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_11_0 (c : Dev nD) : W11 m ρ c (Proc.devRef .tc main_arg8) = W0 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_11_0 (c : Dev nD) : W11 m ρ c (Proc.devRef .tc main_arg9) = W0 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg10_13_0 (c : Dev nD) : W13 m ρ c (Proc.devRef .tc main_arg10) = W0 m ρ c (Proc.devRef .tc main_arg10) :=
  calc W13 m ρ c (Proc.devRef .tc main_arg10)
    _ = W12 m ρ c (Proc.devRef .tc main_arg10) := W13_of_ne m ρ c main_arg10 (by decide)
    _ = W11 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_14_0 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Layers

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.RefFinite.lean ====
/-
  THE REFERENCE'S INTERMEDIATE ARRAYS ARE FINITE when the float arguments are.

  Layer by layer: a matrix product of finite arrays is finite; the edge weights are products of guarded reciprocal
  square roots of degrees, finite whatever the edge list holds; a gathered array times the weights, scatter-added into
  zeros, plus a bias, is finite; the column means of a finite array are finite and its column variances nonnegative
  reals, so the reciprocal square root of variance + ε is finite and the normalised, scaled, shifted, rectified array
  is finite.  These are the facts the variance law needs of the arrays that enter the two batch normalisations.
-/
import proofs.«149254_j13735305413410_1_alg».proof.Proof.RefRead
import proofs.«149254_j13735305413410_1_alg».proof.Proof.LibFinite

set_option maxRecDepth 16384

noncomputable section

open scoped BigOperators

namespace Cert.ReferenceIdeal.Reals

open Cert.ReferenceIdeal Cert.ReferenceIdeal.Gen Cert.ReferenceIdeal.ReadP Cert.Finite
open Idealize.ShloMosaic Idealize.ShloMosaic.TcCoe

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))

/-- Layer 1: the guarded reciprocal square roots of the degrees are finite, whatever the edge list. -/
theorem real_dinv1 : AllReal (val_main_v15 (F := Ideal) x1) := by
  unfold val_main_v15 val_main_v13 val_main_v14
  refine allReal_guard _ _ _ (fun i => ?_) (fun i => ?_)
  · rw [val_main_v12_apply, val_main_cst_1_apply]; exact Ideal.ofBits_zero_f32
  · rw [val_main_call0_v1_apply, val_main_call0_v0_apply, val_main_cst_2_apply]; exact isReal_zeroWord

/-- Layer 1: the edge weights are finite. -/
theorem real_norm1 : AllReal (val_main_v30 (F := Ideal) x1) := by
  unfold val_main_v30 val_main_v22 val_main_v29
  exact ((real_dinv1 x1).gather _ _).mulf ((real_dinv1 x1).gather _ _)

/-- Layer 1: the aggregated layer output (gather, weight, scatter-add, bias) is finite when the product is. -/
theorem real_agg1 (hxw : AllReal (val_main_v0 (F := Ideal) x0 x2)) (hb : AllReal x3) : AllReal (val_main_v46 (F := Ideal) x0 x1 x2 x3) := by
  unfold val_main_v46 val_main_v43 val_main_v45 val_main_v44 val_main_v41 val_main_v40 val_main_v37 val_main_v39 val_main_v38 val_main_cst_8
  exact ((allReal_zeros _ _).scatterAdd ((hxw.gather _ _).mulf (((real_norm1 x1).bcast _ _).bcast _ _)) _ _).addf ((hb.bcast _ _).bcast _ _)

/-- Layer 1: the column means of a finite array are finite. -/
theorem real_mean1 (hh : AllReal (val_main_v46 (F := Ideal) x0 x1 x2 x3)) (j : S128.Idx) : IsReal (val_main_v49 (F := Ideal) x0 x1 x2 x3 j) := by
  rw [val_main_v49_apply, val_main_v47_apply, val_main_v48_apply, val_main_cst_10_apply, val_main_cst_9_apply]
  exact isReal_div_1e5 (isReal_zeroWord.add (isReal_sum _ _ fun k _ => hh _))

/-- Layer 1: the column variances (means of squared deviations) of a finite array are nonnegative reals. -/
theorem nn_var1 (hh : AllReal (val_main_v46 (F := Ideal) x0 x1 x2 x3)) (j : S128.Idx) : IsNN (val_main_v56 (F := Ideal) x0 x1 x2 x3 j) := by
  rw [val_main_v56_apply, val_main_v54_apply, val_main_v55_apply, val_main_cst_12_apply, val_main_cst_11_apply]
  refine IsNN.div_1e5 (isNN_zeroWord.add (isNN_sum _ _ fun k _ => ?_))
  rw [val_main_v53_apply]
  refine IsReal.mul_self ?_
  rw [val_main_v52_apply, val_main_v51_apply, val_main_v50_apply]
  exact (hh _).sub (real_mean1 x0 x1 x2 x3 hh _)

/-- Layer 1: the normalised, scaled, shifted, rectified array is finite. -/
theorem real_bn1 (hh : AllReal (val_main_v46 (F := Ideal) x0 x1 x2 x3)) (hg : AllReal x4) (hb : AllReal x5) :
    AllReal (val_main_v72 (F := Ideal) x0 x1 x2 x3 x4 x5) := by
  intro i
  rw [val_main_v72_apply, val_main_v71_apply, val_main_v68_apply, val_main_v65_apply, val_main_v59_apply, val_main_v58_apply, val_main_v57_apply,
    val_main_v64_apply, val_main_v63_apply, val_main_v62_apply, val_main_v61_apply, val_main_v60_apply, val_main_cst_13_apply,
    val_main_v67_apply, val_main_v66_apply, val_main_v70_apply, val_main_v69_apply, val_main_call1_v0_apply, val_main_call1_cst_apply]
  exact (((((hh i).sub (real_mean1 x0 x1 x2 x3 hh _)).mul (nn_var1 x0 x1 x2 x3 hh _).rsqrt_add_eps).mul (hg _)).add (hb _)).max isReal_zeroWord

/-- Layer 2: the guarded reciprocal square roots of the degrees are finite, whatever the edge list. -/
theorem real_dinv2 : AllReal (val_main_v88 (F := Ideal) x1) := by
  unfold val_main_v88 val_main_v86 val_main_v87
  refine allReal_guard _ _ _ (fun i => ?_) (fun i => ?_)
  · rw [val_main_v85_apply, val_main_cst_16_apply]; exact Ideal.ofBits_zero_f32
  · rw [val_main_call2_v1_apply, val_main_call2_v0_apply, val_main_cst_17_apply]; exact isReal_zeroWord

/-- Layer 2: the edge weights are finite. -/
theorem real_norm2 : AllReal (val_main_v103 (F := Ideal) x1) := by
  unfold val_main_v103 val_main_v95 val_main_v102
  exact ((real_dinv2 x1).gather _ _).mulf ((real_dinv2 x1).gather _ _)

/-- Layer 2: the aggregated layer output (gather, weight, scatter-add, bias) is finite when the product is. -/
theorem real_agg2 (hxw : AllReal (val_main_v73 (F := Ideal) x0 x1 x2 x3 x4 x5 x6)) (hb : AllReal x7) : AllReal (val_main_v119 (F := Ideal) x0 x1 x2 x3 x4 x5 x6 x7) := by
  unfold val_main_v119 val_main_v116 val_main_v118 val_main_v117 val_main_v114 val_main_v113 val_main_v110 val_main_v112 val_main_v111 val_main_cst_24
  exact ((allReal_zeros _ _).scatterAdd ((hxw.gather _ _).mulf (((real_norm2 x1).bcast _ _).bcast _ _)) _ _).addf ((hb.bcast _ _).bcast _ _)

/-- Layer 2: the column means of a finite array are finite. -/
theorem real_mean2 (hh : AllReal (val_main_v119 (F := Ideal) x0 x1 x2 x3 x4 x5 x6 x7)) (j : S128.Idx) : IsReal (val_main_v122 (F := Ideal) x0 x1 x2 x3 x4 x5 x6 x7 j) := by
  rw [val_main_v122_apply, val_main_v120_apply, val_main_v121_apply, val_main_cst_26_apply, val_main_cst_25_apply]
  exact isReal_div_1e5 (isReal_zeroWord.add (isReal_sum _ _ fun k _ => hh _))

/-- Layer 2: the column variances (means of squared deviations) of a finite array are nonnegative reals. -/
theorem nn_var2 (hh : AllReal (val_main_v119 (F := Ideal) x0 x1 x2 x3 x4 x5 x6 x7)) (j : S128.Idx) : IsNN (val_main_v129 (F := Ideal) x0 x1 x2 x3 x4 x5 x6 x7 j) := by
  rw [val_main_v129_apply, val_main_v127_apply, val_main_v128_apply, val_main_cst_28_apply, val_main_cst_27_apply]
  refine IsNN.div_1e5 (isNN_zeroWord.add (isNN_sum _ _ fun k _ => ?_))
  rw [val_main_v126_apply]
  refine IsReal.mul_self ?_
  rw [val_main_v125_apply, val_main_v124_apply, val_main_v123_apply]
  exact (hh _).sub (real_mean2 x0 x1 x2 x3 x4 x5 x6 x7 hh _)

/-- Layer 2: the normalised, scaled, shifted, rectified array is finite. -/
theorem real_bn2 (hh : AllReal (val_main_v119 (F := Ideal) x0 x1 x2 x3 x4 x5 x6 x7)) (hg : AllReal x8) (hb : AllReal x9) :
    AllReal (val_main_v145 (F := Ideal) x0 x1 x2 x3 x4 x5 x6 x7 x8 x9) := by
  intro i
  rw [val_main_v145_apply, val_main_v144_apply, val_main_v141_apply, val_main_v138_apply, val_main_v132_apply, val_main_v131_apply, val_main_v130_apply,
    val_main_v137_apply, val_main_v136_apply, val_main_v135_apply, val_main_v134_apply, val_main_v133_apply, val_main_cst_29_apply,
    val_main_v140_apply, val_main_v139_apply, val_main_v143_apply, val_main_v142_apply, val_main_call3_v0_apply, val_main_call3_cst_apply]
  exact (((((hh i).sub (real_mean2 x0 x1 x2 x3 x4 x5 x6 x7 hh _)).mul (nn_var2 x0 x1 x2 x3 x4 x5 x6 x7 hh _).rsqrt_add_eps).mul (hg _)).add (hb _)).max isReal_zeroWord

/-- THE FIRST NORMALISATION'S INPUT is finite for finite arguments. -/
theorem real_h1 (h0 : AllReal x0) (h2 : AllReal x2) (h3 : AllReal x3) : AllReal (val_main_v46 (F := Ideal) x0 x1 x2 x3) :=
  real_agg1 x0 x1 x2 x3 (by unfold val_main_v0; exact h0.dot h2 _ _) h3

/-- THE SECOND NORMALISATION'S INPUT is finite for finite arguments. -/
theorem real_h2 (h0 : AllReal x0) (h2 : AllReal x2) (h3 : AllReal x3) (h4 : AllReal x4) (h5 : AllReal x5) (h6 : AllReal x6)
    (h7 : AllReal x7) : AllReal (val_main_v119 (F := Ideal) x0 x1 x2 x3 x4 x5 x6 x7) :=
  real_agg2 x0 x1 x2 x3 x4 x5 x6 x7
    (by unfold val_main_v73; exact (real_bn1 x0 x1 x2 x3 x4 x5 (real_h1 x0 x1 x2 x3 h0 h2 h3) h4 h5).dot h6 _ _) h7

end Cert.ReferenceIdeal.Reals

end
-- ==== Proof.LibVariance.lean ====
/-
  THE VARIANCE LAW OF BATCH NORMALISATION, on the reals and then on the extended reals for finite entries.

  For n numbers r with mean m = (∑ r) / n, the mean of the squares minus the square of the mean is the mean of the
  squared deviations:  (∑ r²)/n − m² = (∑ (r − m)²)/n.  Expanding the square gives ∑ r² − 2 m ∑ r + n m², and
  ∑ r = n m.  The law needs every entry to be a real number: on the extended reals an infinite entry makes the two
  sides differ.  The quotient by the float constant 100000.0 is the quotient by the real 100000.
-/
import Idealize.ShloMosaic.PureOps.Ideal
import Idealize.ShloMosaic.PureOps.Ideal.Laws

noncomputable section

open scoped BigOperators

namespace Cert.BnLaw

open Idealize.ShloMosaic

/-- The law on the reals. -/
theorem var_real {n : ℕ} (hn : (n : ℝ) ≠ 0) (r : Fin n → ℝ) :
    (∑ k, r k * r k) / n - ((∑ k, r k) / n) * ((∑ k, r k) / n)
      = (∑ k, (r k - (∑ k, r k) / n) * (r k - (∑ k, r k) / n)) / n := by
  set S := ∑ k, r k with hS
  have h1 : ∑ k, (r k - S / n) * (r k - S / n) = (∑ k, r k * r k) - 2 * (S / n) * S + n * ((S / n) * (S / n)) := by
    have : ∀ k, (r k - S / n) * (r k - S / n) = r k * r k - 2 * (S / n) * r k + (S / n) * (S / n) := fun k => by ring
    simp only [this, Finset.sum_add_distrib, Finset.sum_sub_distrib, ← Finset.mul_sum, Finset.sum_const, Finset.card_univ,
      Fintype.card_fin, nsmul_eq_mul, ← hS]
    ring
  rw [h1]
  field_simp
  ring

/-- A finite sum of reals, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real constant is the real quotient. -/
theorem div_real {c : ℝ} (hc : c ≠ 0) (N : EReal) (hN : N = (c : EReal)) (a : ℝ) :
    Ideal.div (a : EReal) N = ((a / c : ℝ) : EReal) := by
  rw [hN, Ideal.div_coe hc, ← EReal.coe_mul]
  congr 1
  ring

/-- THE LAW ON THE EXTENDED REALS, for n finite entries and a divisor N that is the real n. -/
theorem var_ereal_gen {n : ℕ} (hn : (n : ℝ) ≠ 0) (N : EReal) (hN : N = ((n : ℝ) : EReal))
    (h : Fin n → EReal) (hf : ∀ k, ∃ r : ℝ, h k = (r : EReal)) :
    Ideal.div (∑ k, h k * h k) N - Ideal.div (∑ k, h k) N * Ideal.div (∑ k, h k) N
      = Ideal.div (∑ k, (h k - Ideal.div (∑ k, h k) N) * (h k - Ideal.div (∑ k, h k) N)) N := by
  choose r hr using hf
  have hS : (∑ k, h k) = ((∑ k, r k : ℝ) : EReal) := by
    rw [coe_sum]; exact Finset.sum_congr rfl fun k _ => hr k
  have hQ : (∑ k, h k * h k) = ((∑ k, r k * r k : ℝ) : EReal) := by
    rw [coe_sum]; exact Finset.sum_congr rfl fun k _ => by rw [hr k, EReal.coe_mul]
  rw [hS, hQ, div_real hn N hN, div_real hn N hN]
  have hD : (∑ k, (h k - (((∑ k, r k) / n : ℝ) : EReal)) * (h k - (((∑ k, r k) / n : ℝ) : EReal)))
      = ((∑ k, (r k - (∑ k, r k) / n) * (r k - (∑ k, r k) / n) : ℝ) : EReal) := by
    rw [coe_sum]; exact Finset.sum_congr rfl fun k _ => by rw [hr k, ← EReal.coe_sub, ← EReal.coe_mul]
  rw [hD, div_real hn N hN, ← EReal.coe_mul, ← EReal.coe_sub]
  exact congrArg _ (var_real hn r)

/-- The mean of finite entries is finite. -/
theorem mean_real_gen {n : ℕ} (hn : (n : ℝ) ≠ 0) (N : EReal) (hN : N = ((n : ℝ) : EReal))
    (h : Fin n → EReal) (hf : ∀ k, ∃ r : ℝ, h k = (r : EReal)) :
    ∃ m : ℝ, Ideal.div (∑ k, h k) N = (m : EReal) := by
  choose r hr using hf
  refine ⟨(∑ k, r k) / n, ?_⟩
  rw [show (∑ k, h k) = ((∑ k, r k : ℝ) : EReal) from by rw [coe_sum]; exact Finset.sum_congr rfl fun k _ => hr k,
    div_real hn N hN]

/-- The mean of the squared deviations of finite entries is a nonnegative real. -/
theorem var_nonneg_gen {n : ℕ} (hn : (n : ℝ) ≠ 0) (N : EReal) (hN : N = ((n : ℝ) : EReal))
    (h : Fin n → EReal) (hf : ∀ k, ∃ r : ℝ, h k = (r : EReal)) :
    ∃ v : ℝ, 0 ≤ v ∧ Ideal.div (∑ k, (h k - Ideal.div (∑ k, h k) N) * (h k - Ideal.div (∑ k, h k) N)) N = (v : EReal) := by
  obtain ⟨m, hm⟩ := mean_real_gen hn N hN h hf
  choose r hr using hf
  refine ⟨(∑ k, (r k - m) * (r k - m)) / n, ?_, ?_⟩
  · have hn' : (0 : ℝ) < n := lt_of_le_of_ne (Nat.cast_nonneg n) (Ne.symm hn)
    exact div_nonneg (Finset.sum_nonneg fun k _ => mul_self_nonneg _) hn'.le
  · rw [hm, show (∑ k, (h k - (m : EReal)) * (h k - (m : EReal))) = ((∑ k, (r k - m) * (r k - m) : ℝ) : EReal) from by
      rw [coe_sum]; exact Finset.sum_congr rfl fun k _ => by rw [hr k, ← EReal.coe_sub, ← EReal.coe_mul], div_real hn N hN]

/-- The float word of 100000.0 is the real 100000, written as the cast of the natural number. -/
theorem ofBits_1e5 : Ideal.ofBits .f32 0x47C35000#32 = (((100000 : ℕ) : ℝ) : EReal) := by
  simp [Ideal.ofBits, Ideal.ieee, -EReal.coe_mul]; norm_num

/-! ## One entry of a batch-normalised column, in the two spellings -/

/-- The entry x of a column `col` normalised with the variance as the mean of the squares minus the squared mean
    (sums not started from an explicit zero), scaled by g, shifted by b, rectified. -/
def bnMoments (col : Fin 100000 → EReal) (x g b : EReal) : EReal :=
  max ((x - Ideal.div (∑ k, col k) (Ideal.ofBits .f32 0x47C35000#32))
      * Ideal.rsqrt ((Ideal.div (∑ k, col k * col k) (Ideal.ofBits .f32 0x47C35000#32)
          - Ideal.div (∑ k, col k) (Ideal.ofBits .f32 0x47C35000#32) * Ideal.div (∑ k, col k) (Ideal.ofBits .f32 0x47C35000#32))
        + Ideal.ofBits .f32 0x3727C5AC#32)
      * g + b) (Ideal.ofBits .f32 0x00000000#32)

/-- The same entry with the variance as the mean of the squared deviations, each sum started from the float zero. -/
def bnDeviations (col : Fin 100000 → EReal) (x g b : EReal) : EReal :=
  max ((x - Ideal.div (Ideal.ofBits .f32 0x00000000#32 + ∑ k, col k) (Ideal.ofBits .f32 0x47C35000#32))
      * Ideal.rsqrt (Ideal.div (Ideal.ofBits .f32 0x00000000#32
            + ∑ k, (col k - Ideal.div (Ideal.ofBits .f32 0x00000000#32 + ∑ k, col k) (Ideal.ofBits .f32 0x47C35000#32))
                * (col k - Ideal.div (Ideal.ofBits .f32 0x00000000#32 + ∑ k, col k) (Ideal.ofBits .f32 0x47C35000#32)))
          (Ideal.ofBits .f32 0x47C35000#32)
        + Ideal.ofBits .f32 0x3727C5AC#32)
      * g + b) (Ideal.ofBits .f32 0x00000000#32)

/-- For a column of finite entries the two spellings are one number. -/
theorem bn_spellings (col : Fin 100000 → EReal) (hf : ∀ k, ∃ r : ℝ, col k = (r : EReal)) (x g b : EReal) :
    bnMoments col x g b = bnDeviations col x g b := by
  unfold bnMoments bnDeviations
  rw [Ideal.ofBits_zero_f32, zero_add, zero_add,
    var_ereal_gen (n := 100000) (by norm_num) _ ofBits_1e5 col hf]

end Cert.BnLaw

end
-- ==== Proof.RefNorm.lean ====
/-
  THE REFERENCE'S BATCH NORMALISATION READ AT AN ENTRY.  The reference subtracts the column mean, squares, takes the
  column mean of the squares (each sum started from the float zero and divided by 100000.0), adds ε, takes the
  reciprocal square root, multiplies the centred entry by it and by the scale, adds the shift and rectifies.  Read at
  entry (r, j) this depends on column j of the layer's aggregated output, its entry at (r, j), and the scale and shift
  at j: the second spelling of the variance law's statement.
-/
import proofs.«149254_j13735305413410_1_alg».proof.Proof.RefRead
import proofs.«149254_j13735305413410_1_alg».proof.Proof.LibVariance

set_option maxRecDepth 16384

noncomputable section

open scoped BigOperators

namespace Cert.ReferenceIdeal.Norm

open Cert.ReferenceIdeal Cert.ReferenceIdeal.Gen Cert.ReferenceIdeal.ReadP
open Idealize.ShloMosaic Idealize.ShloMosaic.TcCoe Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))

/-- Layer 1: the reference's normalised, scaled, shifted, rectified array at (r, j), from column j of the layer's
    aggregated output, its entry at (r, j), and the scale and shift at j. -/
theorem norm1_at (r : Fin 100000) (j : Fin 128) :
    val_main_v72 (F := Ideal) x0 x1 x2 x3 x4 x5 (ix2 r j)
      = Cert.BnLaw.bnDeviations (fun k => val_main_v46 (F := Ideal) x0 x1 x2 x3 (ix2 k j)) (val_main_v46 (F := Ideal) x0 x1 x2 x3 (ix2 r j)) (x4 (ix1 j)) (x5 (ix1 j)) := by
  have e1 : ∀ k, idx_main_v47 (idx_main_v57 (idx_main_v58 (ix2 r j))) k = ix2 k j := fun k => funext fun a => by match a with | ⟨0, _⟩ => rfl | ⟨1, _⟩ => rfl
  have e2 : ∀ k, idx_main_v54 (idx_main_v63 (idx_main_v64 (ix2 r j))) k = ix2 k j := fun k => funext fun a => by match a with | ⟨0, _⟩ => rfl | ⟨1, _⟩ => rfl
  have e3 : ∀ k k', idx_main_v47 (idx_main_v50 (idx_main_v51 (ix2 k j))) k' = ix2 k' j := fun k k' => funext fun a => by match a with | ⟨0, _⟩ => rfl | ⟨1, _⟩ => rfl
  have e4 : idx_main_v66 (idx_main_v67 (ix2 r j)) = ix1 j := funext fun a => by match a with | ⟨0, _⟩ => rfl
  have e5 : idx_main_v69 (idx_main_v70 (ix2 r j)) = ix1 j := funext fun a => by match a with | ⟨0, _⟩ => rfl
  have hsq : ∀ k, val_main_v53 (F := Ideal) x0 x1 x2 x3 (ix2 k j)
      = (val_main_v46 (F := Ideal) x0 x1 x2 x3 (ix2 k j) - Ideal.div (Ideal.ofBits .f32 0x00000000#32 + ∑ k', val_main_v46 (F := Ideal) x0 x1 x2 x3 (ix2 k' j)) (Ideal.ofBits .f32 0x47C35000#32))
        * (val_main_v46 (F := Ideal) x0 x1 x2 x3 (ix2 k j) - Ideal.div (Ideal.ofBits .f32 0x00000000#32 + ∑ k', val_main_v46 (F := Ideal) x0 x1 x2 x3 (ix2 k' j)) (Ideal.ofBits .f32 0x47C35000#32)) := fun k => by
    rw [val_main_v53_apply, val_main_v52_apply, val_main_v51_apply, val_main_v50_apply, val_main_v49_apply, val_main_v48_apply, val_main_cst_10_apply, val_main_v47_apply, val_main_cst_9_apply]
    simp only [e3]
    rfl
  rw [val_main_v72_apply, val_main_v71_apply, val_main_v68_apply, val_main_v65_apply, val_main_v59_apply, val_main_v58_apply, val_main_v57_apply,
    val_main_v64_apply, val_main_v63_apply, val_main_v62_apply, val_main_v61_apply, val_main_v60_apply, val_main_cst_13_apply,
    val_main_v56_apply, val_main_v55_apply, val_main_cst_12_apply, val_main_v54_apply, val_main_cst_11_apply,
    val_main_v67_apply, val_main_v66_apply, val_main_v70_apply, val_main_v69_apply, val_main_call1_v0_apply, val_main_call1_cst_apply,
    val_main_v49_apply, val_main_v48_apply, val_main_cst_10_apply, val_main_v47_apply, val_main_cst_9_apply]
  simp only [e1, e2, e4, e5, hsq]
  rfl

/-- Layer 2: the reference's normalised, scaled, shifted, rectified array at (r, j), from column j of the layer's
    aggregated output, its entry at (r, j), and the scale and shift at j. -/
theorem norm2_at (r : Fin 100000) (j : Fin 128) :
    val_main_v145 (F := Ideal) x0 x1 x2 x3 x4 x5 x6 x7 x8 x9 (ix2 r j)
      = Cert.BnLaw.bnDeviations (fun k => val_main_v119 (F := Ideal) x0 x1 x2 x3 x4 x5 x6 x7 (ix2 k j)) (val_main_v119 (F := Ideal) x0 x1 x2 x3 x4 x5 x6 x7 (ix2 r j)) (x8 (ix1 j)) (x9 (ix1 j)) := by
  have e1 : ∀ k, idx_main_v120 (idx_main_v130 (idx_main_v131 (ix2 r j))) k = ix2 k j := fun k => funext fun a => by match a with | ⟨0, _⟩ => rfl | ⟨1, _⟩ => rfl
  have e2 : ∀ k, idx_main_v127 (idx_main_v136 (idx_main_v137 (ix2 r j))) k = ix2 k j := fun k => funext fun a => by match a with | ⟨0, _⟩ => rfl | ⟨1, _⟩ => rfl
  have e3 : ∀ k k', idx_main_v120 (idx_main_v123 (idx_main_v124 (ix2 k j))) k' = ix2 k' j := fun k k' => funext fun a => by match a with | ⟨0, _⟩ => rfl | ⟨1, _⟩ => rfl
  have e4 : idx_main_v139 (idx_main_v140 (ix2 r j)) = ix1 j := funext fun a => by match a with | ⟨0, _⟩ => rfl
  have e5 : idx_main_v142 (idx_main_v143 (ix2 r j)) = ix1 j := funext fun a => by match a with | ⟨0, _⟩ => rfl
  have hsq : ∀ k, val_main_v126 (F := Ideal) x0 x1 x2 x3 x4 x5 x6 x7 (ix2 k j)
      = (val_main_v119 (F := Ideal) x0 x1 x2 x3 x4 x5 x6 x7 (ix2 k j) - Ideal.div (Ideal.ofBits .f32 0x00000000#32 + ∑ k', val_main_v119 (F := Ideal) x0 x1 x2 x3 x4 x5 x6 x7 (ix2 k' j)) (Ideal.ofBits .f32 0x47C35000#32))
        * (val_main_v119 (F := Ideal) x0 x1 x2 x3 x4 x5 x6 x7 (ix2 k j) - Ideal.div (Ideal.ofBits .f32 0x00000000#32 + ∑ k', val_main_v119 (F := Ideal) x0 x1 x2 x3 x4 x5 x6 x7 (ix2 k' j)) (Ideal.ofBits .f32 0x47C35000#32)) := fun k => by
    rw [val_main_v126_apply, val_main_v125_apply, val_main_v124_apply, val_main_v123_apply, val_main_v122_apply, val_main_v121_apply, val_main_cst_26_apply, val_main_v120_apply, val_main_cst_25_apply]
    simp only [e3]
    rfl
  rw [val_main_v145_apply, val_main_v144_apply, val_main_v141_apply, val_main_v138_apply, val_main_v132_apply, val_main_v131_apply, val_main_v130_apply,
    val_main_v137_apply, val_main_v136_apply, val_main_v135_apply, val_main_v134_apply, val_main_v133_apply, val_main_cst_29_apply,
    val_main_v129_apply, val_main_v128_apply, val_main_cst_28_apply, val_main_v127_apply, val_main_cst_27_apply,
    val_main_v140_apply, val_main_v139_apply, val_main_v143_apply, val_main_v142_apply, val_main_call3_v0_apply, val_main_call3_cst_apply,
    val_main_v122_apply, val_main_v121_apply, val_main_cst_26_apply, val_main_v120_apply, val_main_cst_25_apply]
  simp only [e1, e2, e4, e5, hsq]
  rfl

end Cert.ReferenceIdeal.Norm

end
-- ==== Proof.Stages.lean ====
/-
  THE IDEALIZED KERNEL PROGRAM'S VALUE, SEGMENT BY SEGMENT, AGAINST THE REFERENCE'S STAGES.

  The program computes the edge endpoints and the edge weights once, then three layers.  A layer multiplies its input
  by a weight matrix (a kernel region, block of rows by block of rows: the whole product), gathers the product's rows
  at the edge sources, scales them by the edge weights, scatter-adds them at the edge targets and adds a bias (host
  operations, the same as the reference's).  After each of the first two layers come the column statistics (a region
  accumulating over the grid), the mean and the variance as  E[x²] − (E[x])²  (host operations) and the normalise,
  scale, shift, rectify region.  The reference computes the variance as the mean of the squared deviations; for a
  finite array the two agree (the variance law), and the arrays entering the normalisations are finite when the float
  arguments are.  Everything else matches stage by stage: the same operations of equal operands.
-/
import proofs.«149254_j13735305413410_1_alg».proof.Proof.Gen.KernelIdeal.Frame
import proofs.«149254_j13735305413410_1_alg».proof.Proof.Product0
import proofs.«149254_j13735305413410_1_alg».proof.Proof.Product3
import proofs.«149254_j13735305413410_1_alg».proof.Proof.Product6
import proofs.«149254_j13735305413410_1_alg».proof.Proof.ColumnSums1
import proofs.«149254_j13735305413410_1_alg».proof.Proof.ColumnSums4
import proofs.«149254_j13735305413410_1_alg».proof.Proof.Normalise2
import proofs.«149254_j13735305413410_1_alg».proof.Proof.Normalise5
import proofs.«149254_j13735305413410_1_alg».proof.Proof.KeepEdges
import proofs.«149254_j13735305413410_1_alg».proof.Proof.KeepArgs
import proofs.«149254_j13735305413410_1_alg».proof.Proof.RefRead
import proofs.«149254_j13735305413410_1_alg».proof.Proof.RefFinite
import proofs.«149254_j13735305413410_1_alg».proof.Proof.LibVariance
import proofs.«149254_j13735305413410_1_alg».proof.Proof.RefNorm
import Idealize.ShloMosaic.Lib.StableHlo.Run

set_option maxRecDepth 16384

noncomputable section

open scoped BigOperators

namespace Cert.KernelIdeal.Layers

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.RegionValue Cert.LayerFns Cert.Finite
open Cert.ReferenceIdeal.ReadP

variable (m : (ℓ : Loc nD τ sig) → Buf (Elt Ideal) ℓ) (ρ : Dev nD → PrngReg) (c : Dev nD)

/-- Argument k as launched. -/
abbrev ar0 := m ((c : Thread nD τ).loc main_arg0)
abbrev ar1 := m ((c : Thread nD τ).loc main_arg1)
abbrev ar2 := m ((c : Thread nD τ).loc main_arg2)
abbrev ar3 := m ((c : Thread nD τ).loc main_arg3)
abbrev ar4 := m ((c : Thread nD τ).loc main_arg4)
abbrev ar5 := m ((c : Thread nD τ).loc main_arg5)
abbrev ar6 := m ((c : Thread nD τ).loc main_arg6)
abbrev ar7 := m ((c : Thread nD τ).loc main_arg7)
abbrev ar8 := m ((c : Thread nD τ).loc main_arg8)
abbrev ar9 := m ((c : Thread nD τ).loc main_arg9)
abbrev ar10 := m ((c : Thread nD τ).loc main_arg10)
abbrev ar11 := m ((c : Thread nD τ).loc main_arg11)

/-! ## The graph: edge sources, edge targets, edge weights -/

set_option maxHeartbeats 4000000 in
/-- The edge sources (the first row of the edge list, then one self-loop per node), after the first stretch. -/
theorem src1 : W1 m ρ c (Proc.devRef .tc main_v3) = val_main_v4 (F := Ideal) (ar1 m c) := by
  show StableHlo.after hostOps0 (W0 m ρ c) (Proc.devRef .tc main_v3) = _
  generalize hW : W0 m ρ c = W
  after_results
  subst hW
  rfl
set_option maxHeartbeats 4000000 in
/-- The edge targets, after the first stretch. -/
theorem dst1 : W1 m ρ c (Proc.devRef .tc main_v6) = val_main_v7 (F := Ideal) (ar1 m c) := by
  show StableHlo.after hostOps0 (W0 m ρ c) (Proc.devRef .tc main_v6) = _
  generalize hW : W0 m ρ c = W
  after_results
  subst hW
  rfl
set_option maxHeartbeats 4000000 in
/-- Where the degree (the number of edges into a node, self-loop included) is positive. -/
theorem degPos1 : W1 m ρ c (Proc.devRef .tc main_v12) = val_main_v13 (F := Ideal) (ar1 m c) := by
  show StableHlo.after hostOps0 (W0 m ρ c) (Proc.devRef .tc main_v12) = _
  generalize hW : W0 m ρ c = W
  after_results
  subst hW
  rfl
set_option maxHeartbeats 4000000 in
/-- The reciprocal square roots of the degrees. -/
theorem degRsqrt1 : W1 m ρ c (Proc.devRef .tc main_v13) = val_main_v14 (F := Ideal) (ar1 m c) := by
  show StableHlo.after hostOps0 (W0 m ρ c) (Proc.devRef .tc main_v13) = _
  generalize hW : W0 m ρ c = W
  after_results
  subst hW
  rfl
set_option maxHeartbeats 4000000 in
/-- The float zero the guard falls back to. -/
theorem zero1 : W1 m ρ c (Proc.devRef .tc main_cst_2) = val_main_cst_2 (F := Ideal) := by
  show StableHlo.after hostOps0 (W0 m ρ c) (Proc.devRef .tc main_cst_2) = _
  generalize hW : W0 m ρ c = W
  after_results
  subst hW
  rfl
set_option maxHeartbeats 4000000 in
theorem src2 : W2 m ρ c (Proc.devRef .tc main_v3) = val_main_v4 (F := Ideal) (ar1 m c) := by
  show StableHlo.after hostOps0_1 (W1 m ρ c) (Proc.devRef .tc main_v3) = _
  generalize hW : W1 m ρ c = W
  after_results
  subst hW
  exact src1 m ρ c
set_option maxHeartbeats 4000000 in
theorem dst2 : W2 m ρ c (Proc.devRef .tc main_v6) = val_main_v7 (F := Ideal) (ar1 m c) := by
  show StableHlo.after hostOps0_1 (W1 m ρ c) (Proc.devRef .tc main_v6) = _
  generalize hW : W1 m ρ c = W
  after_results
  subst hW
  exact dst1 m ρ c
set_option maxHeartbeats 4000000 in
/-- The guarded reciprocal square roots of the degrees: select (deg > 0, rsqrt deg, 0). -/
theorem dinv2 : W2 m ρ c (Proc.devRef .tc main_v14) = val_main_v15 (F := Ideal) (ar1 m c) := by
  show StableHlo.after hostOps0_1 (W1 m ρ c) (Proc.devRef .tc main_v14) = _
  have e12 := degPos1 m ρ c
  have e13 := degRsqrt1 m ρ c
  have ec := zero1 m ρ c
  generalize hW : W1 m ρ c = W at e12 e13 ec ⊢
  after_results
  have k1 : ∀ (T : BufTy) (x : TRef sig T) (v : T.Contents (Elt Ideal)), x.ofBuf (x.toBuf v) = v := fun T x v => by
    obtain ⟨r, h, h1, h2⟩ := x
    subst h
    rfl
  simp only [k1]
  unfold val_main_v15 val_main_call0_v1 val_main_call0_v0
  rw [← e12, ← e13, ← ec]
  generalize W (Proc.devRef .tc main_v12) = P
  generalize W (Proc.devRef .tc main_v13) = Q
  generalize W (Proc.devRef .tc main_cst_2) = R
  rfl
set_option maxHeartbeats 4000000 in
/-- The edge sources at the first region's entry. -/
theorem src_eq : W3 m ρ c (Proc.devRef .tc main_v3) = val_main_v4 (F := Ideal) (ar1 m c) := by
  show StableHlo.after hostOps0_2 (W2 m ρ c) (Proc.devRef .tc main_v3) = _
  generalize hW : W2 m ρ c = W
  after_results
  subst hW
  exact src2 m ρ c
set_option maxHeartbeats 4000000 in
/-- The edge targets at the first region's entry. -/
theorem dst_eq : W3 m ρ c (Proc.devRef .tc main_v6) = val_main_v7 (F := Ideal) (ar1 m c) := by
  show StableHlo.after hostOps0_2 (W2 m ρ c) (Proc.devRef .tc main_v6) = _
  generalize hW : W2 m ρ c = W
  after_results
  subst hW
  exact dst2 m ρ c
set_option maxHeartbeats 4000000 in
/-- The edge weights: the product of the guarded reciprocal square roots of the degrees at the two endpoints. -/
theorem norm_eq : W3 m ρ c (Proc.devRef .tc main_v29) = val_main_v30 (F := Ideal) (ar1 m c) := by
  show StableHlo.after hostOps0_2 (W2 m ρ c) (Proc.devRef .tc main_v29) = _
  have e14 := dinv2 m ρ c
  have e3 := src2 m ρ c
  have e6 := dst2 m ρ c
  generalize hW : W2 m ρ c = W at e14 e3 e6 ⊢
  after_results
  rw [e14, e3, e6]
  rfl

/-! ## The whole product is the host's dot_general -/

theorem prod_eq_dot128 (a : Cert.ReferenceIdeal.S100000x128.Idx → EReal) (w : Cert.ReferenceIdeal.S128x128.Idx → EReal) :
    prodArr (R := 100000) (K := 128) (N := 128) a w
      = Host.dotGeneral (F := Ideal) (φ₁ := .f32) (φ₂ := .f32) Cert.ReferenceIdeal.dot_S100000x128_S128x128_S100000x128_1_0_0_1_n_n none a w := by
  funext i
  obtain ⟨p, q, rfl⟩ : ∃ (p : Fin 100000) (q : Fin 128), i = ix2 p q := ⟨i 0, i 1, eq_ix2 i⟩
  exact (Cert.BlockDot.hdot_apply (φ₁ := .f32) (φ₂ := .f32) none a w p q).symm

theorem prod_eq_dot40 (a : Cert.ReferenceIdeal.S100000x128.Idx → EReal) (w : Cert.ReferenceIdeal.S128x40.Idx → EReal) :
    prodArr (R := 100000) (K := 128) (N := 40) a w
      = Host.dotGeneral (F := Ideal) (φ₁ := .f32) (φ₂ := .f32) Cert.ReferenceIdeal.dot_S100000x128_S128x40_S100000x40_1_0_0_1_n_n none a w := by
  funext i
  obtain ⟨p, q, rfl⟩ : ∃ (p : Fin 100000) (q : Fin 40), i = ix2 p q := ⟨i 0, i 1, eq_ix2 i⟩
  exact (Cert.BlockDot.hdot_apply (φ₁ := .f32) (φ₂ := .f32) none a w p q).symm

/-! ## Layer 1 -/

/-- Layer 1: the product region leaves the whole product of its input and the weight matrix: the reference's dot_general. -/
theorem xw1_eq : W4 m ρ c (Proc.devRef .tc main_v30) = val_main_v0 (F := Ideal) (ar0 m c) (ar2 m c) := by
  refine (W4_arr m ρ c 2).trans ?_
  refine (finalProd0 (V3 m ρ) c).trans ?_
  show prodArr (W3 m ρ c (Proc.devRef .tc main_arg0)) (W3 m ρ c (Proc.devRef .tc main_arg2)) = _
  rw [keep_arg0_3_0 m ρ c, keep_arg2_3_0 m ρ c]
  exact prod_eq_dot128 _ _

set_option maxHeartbeats 4000000 in
/-- Layer 1: gather at the sources, scale by the edge weights, scatter-add at the targets, add the bias. -/
theorem h1_eq : W5 m ρ c (Proc.devRef .tc main_v46) = val_main_v46 (F := Ideal) (ar0 m c) (ar1 m c) (ar2 m c) (ar3 m c) := by
  show StableHlo.after hostOps1 (W4 m ρ c) (Proc.devRef .tc main_v46) = _
  after_results_simp
  rw [xw1_eq m ρ c, keep_v3_4_3 m ρ c, keep_v6_4_3 m ρ c, keep_v29_4_3 m ρ c, keep_arg3_4_0 m ρ c,
    src_eq m ρ c, dst_eq m ρ c, norm_eq m ρ c]
  rfl

/-- Layer 1: the statistics region leaves the column sums and the column sums of squares of the layer's output. -/
theorem sums1_eq : W6 m ρ c (Proc.devRef .tc main_v47_0) = colSum (val_main_v46 (F := Ideal) (ar0 m c) (ar1 m c) (ar2 m c) (ar3 m c))
    ∧ W6 m ρ c (Proc.devRef .tc main_v47_1) = colSumSq (val_main_v46 (F := Ideal) (ar0 m c) (ar1 m c) (ar2 m c) (ar3 m c)) := by
  constructor
  · refine (W6_arr m ρ c 1).trans ?_
    refine ((finalSums1 (V5 m ρ) c).1).trans ?_
    show colSum (W5 m ρ c (Proc.devRef .tc main_v46)) = _
    rw [h1_eq m ρ c]
  · refine (W6_arr m ρ c 2).trans ?_
    refine ((finalSums1 (V5 m ρ) c).2).trans ?_
    show colSumSq (W5 m ρ c (Proc.devRef .tc main_v46)) = _
    rw [h1_eq m ρ c]

/-- Layer 1: the column means. -/
theorem mean1_at (j : Fin 128) : (W7 m ρ c (Proc.devRef .tc main_v49) : S1x128.Idx → EReal) (ix2 (0 : Fin 1) j)
    = Ideal.div (∑ r : Fin 100000, val_main_v46 (F := Ideal) (ar0 m c) (ar1 m c) (ar2 m c) (ar3 m c) (ix2 r j)) (Ideal.ofBits .f32 0x47C35000#32) := by
  show (StableHlo.after hostOps2 (W6 m ρ c) (Proc.devRef .tc main_v49) : S1x128.Idx → EReal) (ix2 (0 : Fin 1) j) = _
  after_results_simp
  rw [(sums1_eq m ρ c).1]
  rfl

/-- Layer 1: the column variances, as the mean of the squares minus the squared mean. -/
theorem var1_at (j : Fin 128) : (W7 m ρ c (Proc.devRef .tc main_v53) : S1x128.Idx → EReal) (ix2 (0 : Fin 1) j)
    = Ideal.div (∑ r : Fin 100000, val_main_v46 (F := Ideal) (ar0 m c) (ar1 m c) (ar2 m c) (ar3 m c) (ix2 r j) * val_main_v46 (F := Ideal) (ar0 m c) (ar1 m c) (ar2 m c) (ar3 m c) (ix2 r j)) (Ideal.ofBits .f32 0x47C35000#32)
      - Ideal.div (∑ r : Fin 100000, val_main_v46 (F := Ideal) (ar0 m c) (ar1 m c) (ar2 m c) (ar3 m c) (ix2 r j)) (Ideal.ofBits .f32 0x47C35000#32)
        * Ideal.div (∑ r : Fin 100000, val_main_v46 (F := Ideal) (ar0 m c) (ar1 m c) (ar2 m c) (ar3 m c) (ix2 r j)) (Ideal.ofBits .f32 0x47C35000#32) := by
  show (StableHlo.after hostOps2 (W6 m ρ c) (Proc.devRef .tc main_v53) : S1x128.Idx → EReal) (ix2 (0 : Fin 1) j) = _
  after_results_simp
  rw [(sums1_eq m ρ c).1, (sums1_eq m ρ c).2]
  rfl

/-- Layer 1: the scale and the shift, reshaped to rows. -/
theorem scale1_at (j : Fin 128) : (W7 m ρ c (Proc.devRef .tc main_v54) : S1x128.Idx → EReal) (ix2 (0 : Fin 1) j) = (ar4 m c) (ix1 j) := by
  show (StableHlo.after hostOps2 (W6 m ρ c) (Proc.devRef .tc main_v54) : S1x128.Idx → EReal) (ix2 (0 : Fin 1) j) = _
  after_results_simp
  rw [keep_arg4_6_0 m ρ c]
  exact shapeCast_a_1a_apply _ _ (0 : Fin 1) j
theorem shift1_at (j : Fin 128) : (W7 m ρ c (Proc.devRef .tc main_v55) : S1x128.Idx → EReal) (ix2 (0 : Fin 1) j) = (ar5 m c) (ix1 j) := by
  show (StableHlo.after hostOps2 (W6 m ρ c) (Proc.devRef .tc main_v55) : S1x128.Idx → EReal) (ix2 (0 : Fin 1) j) = _
  after_results_simp
  rw [keep_arg5_6_0 m ρ c]
  exact shapeCast_a_1a_apply _ _ (0 : Fin 1) j

/-- Layer 1: the layer's output as the normalise region finds it. -/
theorem hn1_eq : W7 m ρ c (Proc.devRef .tc main_v46) = val_main_v46 (F := Ideal) (ar0 m c) (ar1 m c) (ar2 m c) (ar3 m c) :=
  (keep_v46_7_5 m ρ c).trans (h1_eq m ρ c)

set_option maxHeartbeats 2000000 in
/-- Layer 1: THE NORMALISATION.  The region normalises with the variance E[x²] − (E[x])²; the reference with the mean
    of the squared deviations; the layer's output is finite, so the two are one array (the variance law). -/
theorem y1_eq (hf1 : AllReal (val_main_v46 (F := Ideal) (ar0 m c) (ar1 m c) (ar2 m c) (ar3 m c))) :
    W8 m ρ c (Proc.devRef .tc main_v56) = val_main_v72 (F := Ideal) (ar0 m c) (ar1 m c) (ar2 m c) (ar3 m c) (ar4 m c) (ar5 m c) := by
  refine (W8_arr m ρ c 5).trans ?_
  refine (finalNorm2 (V7 m ρ) c).trans ?_
  have e0 : V7 m ρ c (Pipeline.arrRef spec2 0) = val_main_v46 (F := Ideal) (ar0 m c) (ar1 m c) (ar2 m c) (ar3 m c) := hn1_eq m ρ c
  have e1 : ∀ j : Fin 128, realArr S1x128 (V7 m ρ c (Pipeline.arrRef spec2 1)) (ix2 (0 : Fin 1) j) = _ := mean1_at m ρ c
  have e2 : ∀ j : Fin 128, realArr S1x128 (V7 m ρ c (Pipeline.arrRef spec2 2)) (ix2 (0 : Fin 1) j) = _ := var1_at m ρ c
  have e3 : ∀ j : Fin 128, realArr S1x128 (V7 m ρ c (Pipeline.arrRef spec2 3)) (ix2 (0 : Fin 1) j) = _ := scale1_at m ρ c
  have e4 : ∀ j : Fin 128, realArr S1x128 (V7 m ρ c (Pipeline.arrRef spec2 4)) (ix2 (0 : Fin 1) j) = _ := shift1_at m ρ c
  rw [e0]
  funext i
  obtain ⟨r, j, rfl⟩ : ∃ (r : Fin 100000) (j : Fin 128), i = ix2 r j := ⟨i 0, i 1, eq_ix2 i⟩
  rw [Cert.ReferenceIdeal.Norm.norm1_at, ← Cert.BnLaw.bn_spellings _ (fun k => hf1 (ix2 k j))]
  show max ((val_main_v46 (F := Ideal) (ar0 m c) (ar1 m c) (ar2 m c) (ar3 m c) (ix2 r j) - realArr S1x128 (V7 m ρ c (Pipeline.arrRef spec2 1)) (ix2 (0 : Fin 1) j))
      * Ideal.rsqrt (realArr S1x128 (V7 m ρ c (Pipeline.arrRef spec2 2)) (ix2 (0 : Fin 1) j) + Ideal.ofBits .f32 0x3727C5AC#32)
      * realArr S1x128 (V7 m ρ c (Pipeline.arrRef spec2 3)) (ix2 (0 : Fin 1) j) + realArr S1x128 (V7 m ρ c (Pipeline.arrRef spec2 4)) (ix2 (0 : Fin 1) j)) (Ideal.ofBits .f32 0x00000000#32) = _
  rw [e1 j, e2 j, e3 j, e4 j]
  rfl

/-! ## Layer 2 -/

/-- Layer 2: the product region leaves the whole product of its input and the weight matrix: the reference's dot_general. -/
theorem xw2_eq (hf1 : AllReal (val_main_v46 (F := Ideal) (ar0 m c) (ar1 m c) (ar2 m c) (ar3 m c))) : W9 m ρ c (Proc.devRef .tc main_v57) = val_main_v73 (F := Ideal) (ar0 m c) (ar1 m c) (ar2 m c) (ar3 m c) (ar4 m c) (ar5 m c) (ar6 m c) := by
  refine (W9_arr m ρ c 2).trans ?_
  refine (finalProd3 (V8 m ρ) c).trans ?_
  show prodArr (W8 m ρ c (Proc.devRef .tc main_v56)) (W8 m ρ c (Proc.devRef .tc main_arg6)) = _
  rw [y1_eq m ρ c hf1, keep_arg6_8_0 m ρ c]
  exact prod_eq_dot128 _ _

set_option maxHeartbeats 4000000 in
/-- Layer 2: gather at the sources, scale by the edge weights, scatter-add at the targets, add the bias. -/
theorem h2_eq (hf1 : AllReal (val_main_v46 (F := Ideal) (ar0 m c) (ar1 m c) (ar2 m c) (ar3 m c))) : W10 m ρ c (Proc.devRef .tc main_v73) = val_main_v119 (F := Ideal) (ar0 m c) (ar1 m c) (ar2 m c) (ar3 m c) (ar4 m c) (ar5 m c) (ar6 m c) (ar7 m c) := by
  show StableHlo.after hostOps4 (W9 m ρ c) (Proc.devRef .tc main_v73) = _
  after_results_simp
  rw [xw2_eq m ρ c hf1, keep_v3_9_3 m ρ c, keep_v6_9_3 m ρ c, keep_v29_9_3 m ρ c, keep_arg7_9_0 m ρ c,
    src_eq m ρ c, dst_eq m ρ c, norm_eq m ρ c]
  rfl

/-- Layer 2: the statistics region leaves the column sums and the column sums of squares of the layer's output. -/
theorem sums2_eq (hf1 : AllReal (val_main_v46 (F := Ideal) (ar0 m c) (ar1 m c) (ar2 m c) (ar3 m c))) : W11 m ρ c (Proc.devRef .tc main_v74_0) = colSum (val_main_v119 (F := Ideal) (ar0 m c) (ar1 m c) (ar2 m c) (ar3 m c) (ar4 m c) (ar5 m c) (ar6 m c) (ar7 m c))
    ∧ W11 m ρ c (Proc.devRef .tc main_v74_1) = colSumSq (val_main_v119 (F := Ideal) (ar0 m c) (ar1 m c) (ar2 m c) (ar3 m c) (ar4 m c) (ar5 m c) (ar6 m c) (ar7 m c)) := by
  constructor
  · refine (W11_arr m ρ c 1).trans ?_
    refine ((finalSums4 (V10 m ρ) c).1).trans ?_
    show colSum (W10 m ρ c (Proc.devRef .tc main_v73)) = _
    rw [h2_eq m ρ c hf1]
  · refine (W11_arr m ρ c 2).trans ?_
    refine ((finalSums4 (V10 m ρ) c).2).trans ?_
    show colSumSq (W10 m ρ c (Proc.devRef .tc main_v73)) = _
    rw [h2_eq m ρ c hf1]

/-- Layer 2: the column means. -/
theorem mean2_at (hf1 : AllReal (val_main_v46 (F := Ideal) (ar0 m c) (ar1 m c) (ar2 m c) (ar3 m c))) (j : Fin 128) : (W12 m ρ c (Proc.devRef .tc main_v76) : S1x128.Idx → EReal) (ix2 (0 : Fin 1) j)
    = Ideal.div (∑ r : Fin 100000, val_main_v119 (F := Ideal) (ar0 m c) (ar1 m c) (ar2 m c) (ar3 m c) (ar4 m c) (ar5 m c) (ar6 m c) (ar7 m c) (ix2 r j)) (Ideal.ofBits .f32 0x47C35000#32) := by
  show (StableHlo.after hostOps5 (W11 m ρ c) (Proc.devRef .tc main_v76) : S1x128.Idx → EReal) (ix2 (0 : Fin 1) j) = _
  after_results_simp
  rw [(sums2_eq m ρ c hf1).1]
  rfl

/-- Layer 2: the column variances, as the mean of the squares minus the squared mean. -/
theorem var2_at (hf1 : AllReal (val_main_v46 (F := Ideal) (ar0 m c) (ar1 m c) (ar2 m c) (ar3 m c))) (j : Fin 128) : (W12 m ρ c (Proc.devRef .tc main_v80) : S1x128.Idx → EReal) (ix2 (0 : Fin 1) j)
    = Ideal.div (∑ r : Fin 100000, val_main_v119 (F := Ideal) (ar0 m c) (ar1 m c) (ar2 m c) (ar3 m c) (ar4 m c) (ar5 m c) (ar6 m c) (ar7 m c) (ix2 r j) * val_main_v119 (F := Ideal) (ar0 m c) (ar1 m c) (ar2 m c) (ar3 m c) (ar4 m c) (ar5 m c) (ar6 m c) (ar7 m c) (ix2 r j)) (Ideal.ofBits .f32 0x47C35000#32)
      - Ideal.div (∑ r : Fin 100000, val_main_v119 (F := Ideal) (ar0 m c) (ar1 m c) (ar2 m c) (ar3 m c) (ar4 m c) (ar5 m c) (ar6 m c) (ar7 m c) (ix2 r j)) (Ideal.ofBits .f32 0x47C35000#32)
        * Ideal.div (∑ r : Fin 100000, val_main_v119 (F := Ideal) (ar0 m c) (ar1 m c) (ar2 m c) (ar3 m c) (ar4 m c) (ar5 m c) (ar6 m c) (ar7 m c) (ix2 r j)) (Ideal.ofBits .f32 0x47C35000#32) := by
  show (StableHlo.after hostOps5 (W11 m ρ c) (Proc.devRef .tc main_v80) : S1x128.Idx → EReal) (ix2 (0 : Fin 1) j) = _
  after_results_simp
  rw [(sums2_eq m ρ c hf1).1, (sums2_eq m ρ c hf1).2]
  rfl

/-- Layer 2: the scale and the shift, reshaped to rows. -/
theorem scale2_at (j : Fin 128) : (W12 m ρ c (Proc.devRef .tc main_v81) : S1x128.Idx → EReal) (ix2 (0 : Fin 1) j) = (ar8 m c) (ix1 j) := by
  show (StableHlo.after hostOps5 (W11 m ρ c) (Proc.devRef .tc main_v81) : S1x128.Idx → EReal) (ix2 (0 : Fin 1) j) = _
  after_results_simp
  rw [keep_arg8_11_0 m ρ c]
  exact shapeCast_a_1a_apply _ _ (0 : Fin 1) j
theorem shift2_at (j : Fin 128) : (W12 m ρ c (Proc.devRef .tc main_v82) : S1x128.Idx → EReal) (ix2 (0 : Fin 1) j) = (ar9 m c) (ix1 j) := by
  show (StableHlo.after hostOps5 (W11 m ρ c) (Proc.devRef .tc main_v82) : S1x128.Idx → EReal) (ix2 (0 : Fin 1) j) = _
  after_results_simp
  rw [keep_arg9_11_0 m ρ c]
  exact shapeCast_a_1a_apply _ _ (0 : Fin 1) j

/-- Layer 2: the layer's output as the normalise region finds it. -/
theorem hn2_eq (hf1 : AllReal (val_main_v46 (F := Ideal) (ar0 m c) (ar1 m c) (ar2 m c) (ar3 m c))) : W12 m ρ c (Proc.devRef .tc main_v73) = val_main_v119 (F := Ideal) (ar0 m c) (ar1 m c) (ar2 m c) (ar3 m c) (ar4 m c) (ar5 m c) (ar6 m c) (ar7 m c) :=
  (keep_v73_12_10 m ρ c).trans (h2_eq m ρ c hf1)

set_option maxHeartbeats 2000000 in
/-- Layer 2: THE NORMALISATION.  The region normalises with the variance E[x²] − (E[x])²; the reference with the mean
    of the squared deviations; the layer's output is finite, so the two are one array (the variance law). -/
theorem y2_eq (hf1 : AllReal (val_main_v46 (F := Ideal) (ar0 m c) (ar1 m c) (ar2 m c) (ar3 m c))) (hf2 : AllReal (val_main_v119 (F := Ideal) (ar0 m c) (ar1 m c) (ar2 m c) (ar3 m c) (ar4 m c) (ar5 m c) (ar6 m c) (ar7 m c))) :
    W13 m ρ c (Proc.devRef .tc main_v83) = val_main_v145 (F := Ideal) (ar0 m c) (ar1 m c) (ar2 m c) (ar3 m c) (ar4 m c) (ar5 m c) (ar6 m c) (ar7 m c) (ar8 m c) (ar9 m c) := by
  refine (W13_arr m ρ c 5).trans ?_
  refine (finalNorm5 (V12 m ρ) c).trans ?_
  have e0 : V12 m ρ c (Pipeline.arrRef spec5 0) = val_main_v119 (F := Ideal) (ar0 m c) (ar1 m c) (ar2 m c) (ar3 m c) (ar4 m c) (ar5 m c) (ar6 m c) (ar7 m c) := hn2_eq m ρ c hf1
  have e1 : ∀ j : Fin 128, realArr S1x128 (V12 m ρ c (Pipeline.arrRef spec5 1)) (ix2 (0 : Fin 1) j) = _ := mean2_at m ρ c hf1
  have e2 : ∀ j : Fin 128, realArr S1x128 (V12 m ρ c (Pipeline.arrRef spec5 2)) (ix2 (0 : Fin 1) j) = _ := var2_at m ρ c hf1
  have e3 : ∀ j : Fin 128, realArr S1x128 (V12 m ρ c (Pipeline.arrRef spec5 3)) (ix2 (0 : Fin 1) j) = _ := scale2_at m ρ c
  have e4 : ∀ j : Fin 128, realArr S1x128 (V12 m ρ c (Pipeline.arrRef spec5 4)) (ix2 (0 : Fin 1) j) = _ := shift2_at m ρ c
  rw [e0]
  funext i
  obtain ⟨r, j, rfl⟩ : ∃ (r : Fin 100000) (j : Fin 128), i = ix2 r j := ⟨i 0, i 1, eq_ix2 i⟩
  rw [Cert.ReferenceIdeal.Norm.norm2_at, ← Cert.BnLaw.bn_spellings _ (fun k => hf2 (ix2 k j))]
  show max ((val_main_v119 (F := Ideal) (ar0 m c) (ar1 m c) (ar2 m c) (ar3 m c) (ar4 m c) (ar5 m c) (ar6 m c) (ar7 m c) (ix2 r j) - realArr S1x128 (V12 m ρ c (Pipeline.arrRef spec5 1)) (ix2 (0 : Fin 1) j))
      * Ideal.rsqrt (realArr S1x128 (V12 m ρ c (Pipeline.arrRef spec5 2)) (ix2 (0 : Fin 1) j) + Ideal.ofBits .f32 0x3727C5AC#32)
      * realArr S1x128 (V12 m ρ c (Pipeline.arrRef spec5 3)) (ix2 (0 : Fin 1) j) + realArr S1x128 (V12 m ρ c (Pipeline.arrRef spec5 4)) (ix2 (0 : Fin 1) j)) (Ideal.ofBits .f32 0x00000000#32) = _
  rw [e1 j, e2 j, e3 j, e4 j]
  rfl

/-! ## Layer 3 -/

/-- Layer 3: the product region leaves the whole product of its input and the weight matrix: the reference's dot_general. -/
theorem xw3_eq (hf1 : AllReal (val_main_v46 (F := Ideal) (ar0 m c) (ar1 m c) (ar2 m c) (ar3 m c))) (hf2 : AllReal (val_main_v119 (F := Ideal) (ar0 m c) (ar1 m c) (ar2 m c) (ar3 m c) (ar4 m c) (ar5 m c) (ar6 m c) (ar7 m c))) : W14 m ρ c (Proc.devRef .tc main_v84) = val_main_v146 (F := Ideal) (ar0 m c) (ar1 m c) (ar2 m c) (ar3 m c) (ar4 m c) (ar5 m c) (ar6 m c) (ar7 m c) (ar8 m c) (ar9 m c) (ar10 m c) := by
  refine (W14_arr m ρ c 2).trans ?_
  refine (finalProd6 (V13 m ρ) c).trans ?_
  show prodArr (W13 m ρ c (Proc.devRef .tc main_v83)) (W13 m ρ c (Proc.devRef .tc main_arg10)) = _
  rw [y2_eq m ρ c hf1 hf2, keep_arg10_13_0 m ρ c]
  exact prod_eq_dot40 _ _

set_option maxHeartbeats 4000000 in
/-- Layer 3: gather at the sources, scale by the edge weights, scatter-add at the targets, add the bias. -/
theorem h3_eq (hf1 : AllReal (val_main_v46 (F := Ideal) (ar0 m c) (ar1 m c) (ar2 m c) (ar3 m c))) (hf2 : AllReal (val_main_v119 (F := Ideal) (ar0 m c) (ar1 m c) (ar2 m c) (ar3 m c) (ar4 m c) (ar5 m c) (ar6 m c) (ar7 m c))) : W15 m ρ c (Proc.devRef .tc main_v100) = val_main_v192 (F := Ideal) (ar0 m c) (ar1 m c) (ar2 m c) (ar3 m c) (ar4 m c) (ar5 m c) (ar6 m c) (ar7 m c) (ar8 m c) (ar9 m c) (ar10 m c) (ar11 m c) := by
  show StableHlo.after hostOps7 (W14 m ρ c) (Proc.devRef .tc main_v100) = _
  after_results_simp
  rw [xw3_eq m ρ c hf1 hf2, keep_v3_14_3 m ρ c, keep_v6_14_3 m ρ c, keep_v29_14_3 m ρ c, keep_arg11_14_0 m ρ c,
    src_eq m ρ c, dst_eq m ρ c, norm_eq m ρ c]
  rfl

end Cert.KernelIdeal.Layers

end
-- ==== Proof.PreReal.lean ====
/-
  THE PRECONDITION, READ BACK: every float argument is finite.

  The precondition is the conjunction, over the eleven float arguments, of "every entry's absolute value is below
  +∞".  On the extended reals |x| = max x (−x) is below +∞ exactly when x is neither infinity, that is, when x is a
  real number.
-/
import proofs.«149254_j13735305413410_1_alg».proof.Pre_finite_inputs
import proofs.«149254_j13735305413410_1_alg».proof.Proof.LibFinite
import Idealize.ShloMosaic.Lib.ReduceAll
import Idealize.ShloMosaic.Lib.ValueIdx

set_option maxRecDepth 16384

noncomputable section

namespace Cert.Pre_finite_inputs.Decode

open Cert.Pre_finite_inputs Idealize.ShloMosaic Idealize.ShloMosaic.ValueIdx Cert.Finite

instance : Subsingleton S_.Idx := ⟨fun a b => funext fun d => d.elim0⟩

/-- The float word of +∞ is the top element. -/
theorem infWord : Ideal.ofBits .f32 0x7F800000#32 = ⊤ := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [infWord] at h
  have hlt : max x (-x) < ⊤ := by
    unfold Ideal.cmp at h
    by_contra hn
    simp [hn] at h
  induction x using EReal.rec with
  | bot => exact absurd hlt (by simp)
  | top => exact absurd hlt (by simp)
  | coe r => exact ⟨r, rfl⟩

/-- One conjunct of the precondition: all entries of x have absolute value below +∞, so all are finite. -/
theorem allReal_of_all {s : Shape} (x : FVec Ideal s .f32) (dims : Fin S_.rank → Fin s.rank) (hb : S_.BroadcastsInDim s dims)
    {axes : List (Fin s.rank)} (rh : s.ReducesTo axes S_) (hu : 0 < S_.numel)
    (e : Host.reduce IntOp.andi (cmpf .olt (Host.absf x) (broadcastInDim s dims hb (constant (F := Ideal) S_ .f32 0x7F800000#32)))
      (constantI S_ 1 1#1) rh hu ix0 = 1#1) : AllReal x := fun i =>
  isReal_of_abs_lt (x i) (Host.reduce_andi_all _ _ rh hu ix0 e i)

/-- THE PRECONDITION READ BACK: when the printed predicate is all ones, each of the eleven float arguments is finite. -/
theorem args_real [Cert.Pre_finite_inputs.Facts] (x0 : FVec Ideal S100000x128 .f32) (x1 : IVec S2x1600000 32) (x2 : FVec Ideal S128x128 .f32)
    (x3 x4 x5 : FVec Ideal S128 .f32) (x6 : FVec Ideal S128x128 .f32) (x7 x8 x9 : FVec Ideal S128 .f32) (x10 : FVec Ideal S128x40 .f32)
    (x11 : FVec Ideal S40 .f32) (h : fn (F := Ideal) x0 x1 x2 x3 x4 x5 x6 x7 x8 x9 x10 x11 = fun _ => 1#1) :
    AllReal x0 ∧ AllReal x2 ∧ AllReal x3 ∧ AllReal x4 ∧ AllReal x5 ∧ AllReal x6 ∧ AllReal x7 ∧ AllReal x8 ∧ AllReal x9
      ∧ AllReal x10 ∧ AllReal x11 := by
  have h0 := congrFun h ix0
  simp only [fn, fn_part1, fn_part2, fn_part3, andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨allReal_of_all x0 _ _ _ _ e0, allReal_of_all x2 _ _ _ _ e2, allReal_of_all x3 _ _ _ _ e3, allReal_of_all x4 _ _ _ _ e4,
    allReal_of_all x5 _ _ _ _ e5, allReal_of_all x6 _ _ _ _ e6, allReal_of_all x7 _ _ _ _ e7, allReal_of_all x8 _ _ _ _ e8,
    allReal_of_all x9 _ _ _ _ e9, allReal_of_all x10 _ _ _ _ e10, allReal_of_all x11 _ _ _ _ e11⟩

end Cert.Pre_finite_inputs.Decode

end
-- ==== Proof.lean ====
/-
  THE CERTIFICATE: a three-layer graph convolution network (matrix product, gather at the edge sources, scale by
  the edge weights, scatter-add at the edge targets, bias; batch normalisation and rectifier after the first two
  layers) computed by seven kernel regions among host operations, against the plain reference.

  The three frames: the two kernel programs' are their runs through the fifteen segments of the program; the
  reference's is its run with the result dropped.  The idealization rewrote nothing.  The two idealized programs end
  with equal results: segment by segment the kernel program's buffers are the reference's stages — the products,
  the aggregated layer outputs, and, by the variance law E[x²] − (E[x])² = E[(x − E[x])²] for the FINITE arrays that
  enter the two normalisations, the normalised arrays.  Finiteness comes from the precondition: every float argument
  is finite, and products, guarded reciprocal square roots of degrees, scatter-added finite sums and normalised
  arrays of finite arrays are finite.
-/
import proofs.«149254_j13735305413410_1_alg».proof.Defs
import proofs.«149254_j13735305413410_1_alg».proof.Proof.Gen.Kernel
import proofs.«149254_j13735305413410_1_alg».proof.Proof.Gen.Kernel.Skeleton
import proofs.«149254_j13735305413410_1_alg».proof.Proof.Gen.Kernel.Launch
import proofs.«149254_j13735305413410_1_alg».proof.Proof.Gen.Kernel.Points
import proofs.«149254_j13735305413410_1_alg».proof.Proof.Gen.Kernel.Frame
import proofs.«149254_j13735305413410_1_alg».proof.Proof.Gen.KernelIdeal
import proofs.«149254_j13735305413410_1_alg».proof.Proof.Gen.KernelIdeal.Skeleton
import proofs.«149254_j13735305413410_1_alg».proof.Proof.Gen.KernelIdeal.Launch
import proofs.«149254_j13735305413410_1_alg».proof.Proof.Gen.KernelIdeal.Points
import proofs.«149254_j13735305413410_1_alg».proof.Proof.Gen.KernelIdeal.Frame
import proofs.«149254_j13735305413410_1_alg».proof.Proof.Gen.ReferenceIdeal
import proofs.«149254_j13735305413410_1_alg».proof.Proof.Gen.Pre_finite_inputs
import proofs.«149254_j13735305413410_1_alg».proof.Proof.KernelRun
import proofs.«149254_j13735305413410_1_alg».proof.Proof.Stages
import proofs.«149254_j13735305413410_1_alg».proof.Proof.RefRead
import proofs.«149254_j13735305413410_1_alg».proof.Proof.RefFinite
import proofs.«149254_j13735305413410_1_alg».proof.Proof.PreReal
import Idealize.ShloMosaic.Adequacy
import Idealize.ShloMosaic.Init

set_option maxRecDepth 16384

noncomputable section

namespace Cert.Proof

open Idealize.ShloMosaic Idealize.SL.Sem Cert.Finite

/-- The kernel program runs and leaves its arguments as launched. -/
theorem frame_k [Cert.Kernel.Facts] [Cert.Pre_finite_inputs.Facts] : Cert.frame_Kernel := fun m ρ _ => Cert.Kernel.Gen.frame m ρ

/-- The idealized kernel program runs and leaves its arguments as launched. -/
theorem frame_ki [Cert.KernelIdeal.Facts] [Cert.Pre_finite_inputs.Facts] : Cert.frame_KernelIdeal := fun m ρ _ => Cert.KernelIdeal.Gen.frame m ρ

/-- The idealized reference runs and leaves its arguments as launched: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- The idealized programs end with equal results. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.ReadP.val_main_v192 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.KernelIdeal.Layers.runResult (F := Ideal) m ρ)
    obtain ⟨r0, r2, r3, r4, r5, r6, r7, -, -, -, -⟩ := Cert.Pre_finite_inputs.Decode.args_real _ _ _ _ _ _ _ _ _ _ _ _ (hpre c)
    have hf1 := Cert.ReferenceIdeal.Reals.real_h1 _ (m ((c.tc : Thread Cert.KernelIdeal.nD Cert.KernelIdeal.τ).loc Cert.KernelIdeal.main_arg1)) _ _ r0 r2 r3
    have hf2 := Cert.ReferenceIdeal.Reals.real_h2 _ (m ((c.tc : Thread Cert.KernelIdeal.nD Cert.KernelIdeal.τ).loc Cert.KernelIdeal.main_arg1)) _ _ _ _ _ _ r0 r2 r3 r4 r5 r6 r7
    exact Cert.KernelIdeal.Layers.h3_eq m ρ c hf1 hf2
  · refine (θ_run Cert.ReferenceIdeal.defs _ _).mono (fun r h c => ⟨(h c).1.trans ?_, (h c).2⟩) (Cert.ReferenceIdeal.ValueP.run (F := Ideal) m' ρ')
    rw [Cert.ReferenceIdeal.ReadP.val_main_v192_eq]
    obtain ⟨a0, a1, a2, a3, a4, a5, a6, a7, a8, a9, a10, a11⟩ := hagree c
    rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
